-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S500000x96 : Shape := ⟨2, ![500000, 96]⟩
abbrev S64x128 : Shape := ⟨2, ![64, 128]⟩
abbrev S96x128 : Shape := ⟨2, ![96, 128]⟩
abbrev S160x64 : Shape := ⟨2, ![160, 64]⟩
abbrev S64 : Shape := ⟨1, ![64]⟩
abbrev S64x1 : Shape := ⟨2, ![64, 1]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S500000x96 : S_.BroadcastsInDim S500000x96 (![] : Fin 0 → Fin S500000x96.rank)
  reducesTo_S500000x96_S_d0_1 : S500000x96.ReducesTo [0, 1] S_
  bcast_S_S64x128 : S_.BroadcastsInDim S64x128 (![] : Fin 0 → Fin S64x128.rank)
  reducesTo_S64x128_S_d0_1 : S64x128.ReducesTo [0, 1] S_
  bcast_S_S96x128 : S_.BroadcastsInDim S96x128 (![] : Fin 0 → Fin S96x128.rank)
  reducesTo_S96x128_S_d0_1 : S96x128.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg7 : FVec F S64x1 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  main_v38

def fn_part1 {F : FTy → Type} [FloatOps F] (main_arg4 : FVec F S160x64 .f32) (main_arg5 : FVec F S64 .f32) (main_arg6 : FVec F S64 .f32) (main_arg7 : FVec F S64x1 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S160x64 .f32 := Host.absf main_arg4
  let main_cst_6 : FVec F S_ .f32 := constant S_ .f32 0x7F800000#32
  let main_v20 : FVec F S160x64 .f32 := broadcastInDim S160x64 ![] bcast_S_S160x64 main_cst_6
  let main_v21 : IVec S160x64 1 := cmpf .olt main_v19 main_v20
  let main_c_7 : IVec S_ 1 := constantI S_ 1 1#1
  let main_v22 : IVec S_ 1 := (fun x v => Host.reduce IntOp.andi x v reducesTo_S160x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S500000x64 .f32) (main_arg1 : FVec F S500000x96 .f32) (main_arg2 : FVec F S64x128 .f32) (main_arg3 : FVec F S96x128 .f32) (main_arg4 : FVec F S160x64 .f32) (main_arg5 : FVec F S64 .f32) (main_arg6 : FVec F S64 .f32) (main_arg7 : FVec F S64x1 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S500000x96 .f32 := Host.absf main_arg1
  let main_cst_0 : FVec F S_ .f32 := constant S_ .f32 0x7F800000#32
  let main_v5 : FVec F S500000x96 .f32 := broadcastInDim S500000x96 ![] bcast_S_S500000x96 main_cst_0
  let main_v6 : IVec S500000x96 1 := cmpf .olt main_v4 main_v5
  let main_c_1 : IVec S_ 1 := constantI S_ 1 1#1
  let main_v7 : IVec S_ 1 := (fun x v => Host.reduce IntOp.andi x v reducesTo_S500000x96_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S96x128 .f32 := Host.absf main_arg3
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg4 main_arg5 main_arg6 main_arg7 main_v13 main_v16
-- ==== Kernel.lean ====
abbrev S500000x64 : Shape := ⟨2, ![500000, 64]⟩
abbrev S500000x96 : Shape := ⟨2, ![500000, 96]⟩
abbrev S64x128 : Shape := ⟨2, ![64, 128]⟩
abbrev S96x128 : Shape := ⟨2, ![96, 128]⟩
abbrev S160x64 : Shape := ⟨2, ![160, 64]⟩
abbrev S64 : Shape := ⟨1, ![64]⟩
abbrev S64x1 : Shape := ⟨2, ![64, 1]⟩
abbrev S64x64 : Shape := ⟨2, ![64, 64]⟩
abbrev S96x64 : Shape := ⟨2, ![96, 64]⟩
abbrev S1x64 : Shape := ⟨2, ![1, 64]⟩
abbrev S500000x128 : Shape := ⟨2, ![500000, 128]⟩
abbrev S12288x64 : Shape := ⟨2, ![12288, 64]⟩
abbrev S12288x96 : Shape := ⟨2, ![12288, 96]⟩
abbrev S12288x128 : Shape := ⟨2, ![12288, 128]⟩
abbrev S12288 : Shape := ⟨1, ![12288]⟩
abbrev S12288x1 : Shape := ⟨2, ![12288, 1]⟩

abbrev nBuf : Space → Nat
  | .hbm => 14
  | .vmem => 13
  | .smem => 0
  | _ => 0

abbrev bufTy : (tb : Table) → Fin (tcTables nBuf tb) → BufTy
  | .hbm, ⟨0, _⟩ => ⟨S500000x64, .f32⟩
  | .hbm, ⟨1, _⟩ => ⟨S500000x96, .f32⟩
  | .hbm, ⟨2, _⟩ => ⟨S64x128, .f32⟩
  | .hbm, ⟨3, _⟩ => ⟨S96x128, .f32⟩
  | .hbm, ⟨4, _⟩ => ⟨S160x64, .f32⟩
  | .hbm, ⟨5, _⟩ => ⟨S64, .f32⟩
  | .hbm, ⟨6, _⟩ => ⟨S64, .f32⟩
  | .hbm, ⟨7, _⟩ => ⟨S64x1, .f32⟩
  | .hbm, ⟨8, _⟩ => ⟨S64x64, .f32⟩
  | .hbm, ⟨9, _⟩ => ⟨S96x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S500000x128, .f32⟩
  | .local _ .vmem, ⟨0, _⟩ => ⟨S12288x64, .f32⟩
  | .local _ .vmem, ⟨1, _⟩ => ⟨S12288x64, .f32⟩
  | .local _ .vmem, ⟨2, _⟩ => ⟨S12288x96, .f32⟩
  | .local _ .vmem, ⟨3, _⟩ => ⟨S12288x96, .f32⟩
  | .local _ .vmem, ⟨4, _⟩ => ⟨S64x128, .f32⟩
  | .local _ .vmem, ⟨5, _⟩ => ⟨S96x128, .f32⟩
  | .local _ .vmem, ⟨6, _⟩ => ⟨S64x64, .f32⟩
  | .local _ .vmem, ⟨7, _⟩ => ⟨S96x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S12288x128, .f32⟩
  | .local _ .vmem, ⟨12, _⟩ => ⟨S12288x128, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12288x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12288x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S12288x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S160x64_S64x64_0_0 : S160x64.Slices ![0, 0] S64x64
  slices_S160x64_S96x64_64_0 : S160x64.Slices ![64, 0] S96x64
  shapeCasts_S64_S1x64 : S64.ShapeCasts S1x64
  shapeCasts_S64x1_S1x64 : S64x1.ShapeCasts S1x64
  inb_S12288x64_S12288x64_0_0 : ∀ a, (![0, 0] : Fin 2 → Nat) a + S12288x64.size a ≤ S12288x64.size a
  h_S12288x64 : 0 < S12288x64.numel
  inb_S12288x96_S12288x96_0_0 : ∀ a, (![0, 0] : Fin 2 → Nat) a + S12288x96.size a ≤ S12288x96.size a
  h_S12288x96 : 0 < S12288x96.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S96x64_S96x64_0_0 : ∀ a, (![0, 0] : Fin 2 → Nat) a + S96x64.size a ≤ S96x64.size a
  h_S96x64 : 0 < S96x64.numel
  shapeCasts_S96x64_S96x64 : S96x64.ShapeCasts S96x64
  reduces_S12288x64_S12288 : S12288x64.Reduces [1] S12288
  shapeCasts_S12288_S12288x1 : S12288.ShapeCasts S12288x1
  broadcasts_S12288x1_S12288x64 : S12288x1.Broadcasts S12288x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12288x64 : S1x64.Broadcasts S12288x64
  inb_S64x128_S64x128_0_0 : ∀ a, (![0, 0] : Fin 2 → Nat) a + S64x128.size a ≤ S64x128.size a
  h_S64x128 : 0 < S64x128.numel
  inb_S96x128_S96x128_0_0 : ∀ a, (![0, 0] : Fin 2 → Nat) a + S96x128.size a ≤ S96x128.size a
  h_S96x128 : 0 < S96x128.numel
  broadcasts_S12288x1_S12288x128 : S12288x1.Broadcasts S12288x128
  inb_S12288x128_S12288x128_0_0 : ∀ a, (![0, 0] : Fin 2 → Nat) a + S12288x128.size a ≤ S12288x128.size a
  h_S12288x128 : 0 < S12288x128.numel
  dot_S12288x64_S64x64_S12288x64_1_0_0_1_n_n_wf : DotDims.WF S12288x64 S64x64 S12288x64 [1] [0] [0] [1] [] []
  dot_S12288x96_S96x64_S12288x64_1_0_0_1_n_n_wf : DotDims.WF S12288x96 S96x64 S12288x64 [1] [0] [0] [1] [] []
  dot_S12288x64_S64x128_S12288x128_1_0_0_1_n_n_wf : DotDims.WF S12288x64 S64x128 S12288x128 [1] [0] [0] [1] [] []
  dot_S12288x96_S96x128_S12288x128_1_0_0_1_n_n_wf : DotDims.WF S12288x96 S96x128 S12288x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12288x64.size a < S500000x64.size a
  hwx0_0 : ∀ i : grid0.Coords, EltTy.bits .f32 = 32 ∨ (Rect.unit (s := S500000x64) (fun a => cc0_transform_0 i a * S12288x64.size a) (fun a => (Pipeline.Clip.of (cc0_transform_0 i a) (S12288x64.size a) (S500000x64.size a)).extent (S12288x64.size a)) fun a => Pipeline.Clip.inb (Pipeline.Clip.ok_of (hstart0_0 i a))).WholeWords (EltTy.packing .f32)
  hwxs0_0 : ∀ i : grid0.Coords, EltTy.bits .f32 = 32 ∨ (Rect.unit (s := S12288x64) (fun _ => 0) (fun a => (Pipeline.Clip.of (cc0_transform_0 i a) (S12288x64.size a) (S500000x64.size a)).extent (S12288x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S12288x96.size a < S500000x96.size a
  hwx0_1 : ∀ i : grid0.Coords, EltTy.bits .f32 = 32 ∨ (Rect.unit (s := S500000x96) (fun a => cc0_transform_1 i a * S12288x96.size a) (fun a => (Pipeline.Clip.of (cc0_transform_1 i a) (S12288x96.size a) (S500000x96.size a)).extent (S12288x96.size a)) fun a => Pipeline.Clip.inb (Pipeline.Clip.ok_of (hstart0_1 i a))).WholeWords (EltTy.packing .f32)
  hwxs0_1 : ∀ i : grid0.Coords, EltTy.bits .f32 = 32 ∨ (Rect.unit (s := S12288x96) (fun _ => 0) (fun a => (Pipeline.Clip.of (cc0_transform_1 i a) (S12288x96.size a) (S500000x96.size a)).extent (S12288x96.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96x64.size a ≤ S96x64.size a
  hwx0_5 : ∀ i : grid0.Coords, EltTy.bits .f32 = 32 ∨ (Rect.block (s := S96x64) S96x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S12288x128.size a < S500000x128.size a
  hwx0_9 : ∀ i : grid0.Coords, EltTy.bits .f32 = 32 ∨ (Rect.unit (s := S500000x128) (fun a => cc0_transform_9 i a * S12288x128.size a) (fun a => (Pipeline.Clip.of (cc0_transform_9 i a) (S12288x128.size a) (S500000x128.size a)).extent (S12288x128.size a)) fun a => Pipeline.Clip.inb (Pipeline.Clip.ok_of (hstart0_9 i a))).WholeWords (EltTy.packing .f32)
  hwxs0_9 : ∀ i : grid0.Coords, EltTy.bits .f32 = 32 ∨ (Rect.unit (s := S12288x128) (fun _ => 0) (fun a => (Pipeline.Clip.of (cc0_transform_9 i a) (S12288x128.size a) (S500000x128.size a)).extent (S12288x128.size a)) fun a => (Nat.zero_add _).trans_le (Pipeline.Clip.extent_le (Pipeline.Clip.ok_of (hstart0_9 i a)))).WholeWords (EltTy.packing .f32)

variable [Facts₀]

def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x96_S96x64_S12288x64_1_0_0_1_n_n : DotDims S12288x96 S96x64 S12288x64 where
  lhsContracting := [1]
  rhsContracting := [0]
  lhsNonContracting := [0]
  rhsNonContracting := [1]
  lhsBatch := []
  rhsBatch := []
  wf := dot_S12288x96_S96x64_S12288x64_1_0_0_1_n_n_wf
def dot_S12288x64_S64x128_S12288x128_1_0_0_1_n_n : DotDims S12288x64 S64x128 S12288x128 where
  lhsContracting := [1]
  rhsContracting := [0]
  lhsNonContracting := [0]
  rhsNonContracting := [1]
  lhsBatch := []
  rhsBatch := []
  wf := dot_S12288x64_S64x128_S12288x128_1_0_0_1_n_n_wf
def dot_S12288x96_S96x128_S12288x128_1_0_0_1_n_n : DotDims S12288x96 S96x128 S12288x128 where
  lhsContracting := [1]
  rhsContracting := [0]
  lhsNonContracting := [0]
  rhsNonContracting := [1]
  lhsBatch := []
  rhsBatch := []
  wf := dot_S12288x96_S96x128_S12288x128_1_0_0_1_n_n_wf

abbrev win0_0 : Pipeline.Window sig grid0 :=
  Pipeline.Window.ofSpecClip (Memref.whole main_arg0) S12288x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S12288x96.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S96x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v5) S12288x128.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x64 : Shape := ⟨2, ![500000, 64]⟩
abbrev S500000x96 : Shape := ⟨2, ![500000, 96]⟩
abbrev S64x128 : Shape := ⟨2, ![64, 128]⟩
abbrev S96x128 : Shape := ⟨2, ![96, 128]⟩
abbrev S160x64 : Shape := ⟨2, ![160, 64]⟩
abbrev S64 : Shape := ⟨1, ![64]⟩
abbrev S64x1 : Shape := ⟨2, ![64, 1]⟩
abbrev S500000x160 : Shape := ⟨2, ![500000, 160]⟩
abbrev S_ : Shape := ⟨0, ![]⟩
abbrev S500000 : Shape := ⟨1, ![500000]⟩
abbrev S500000x1 : Shape := ⟨2, ![500000, 1]⟩
abbrev S1x64 : Shape := ⟨2, ![1, 64]⟩
abbrev S500000x128 : Shape := ⟨2, ![500000, 128]⟩

abbrev nBuf : Space → Nat
  | .hbm => 61
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S500000x96, .f32⟩
  | .hbm, ⟨2, _⟩ => ⟨S64x128, .f32⟩
  | .hbm, ⟨3, _⟩ => ⟨S96x128, .f32⟩
  | .hbm, ⟨4, _⟩ => ⟨S160x64, .f32⟩
  | .hbm, ⟨5, _⟩ => ⟨S64, .f32⟩
  | .hbm, ⟨6, _⟩ => ⟨S64, .f32⟩
  | .hbm, ⟨7, _⟩ => ⟨S64x1, .f32⟩
  | .hbm, ⟨8, _⟩ => ⟨S500000x160, .f32⟩
  | .hbm, ⟨9, _⟩ => ⟨S500000x64, .f32⟩
  | .hbm, ⟨10, _⟩ => ⟨S_, .f32⟩
  | .hbm, ⟨11, _⟩ => ⟨S500000, .f32⟩
  | .hbm, ⟨12, _⟩ => ⟨S500000x1, .f32⟩
  | .hbm, ⟨13, _⟩ => ⟨S_, .f32⟩
  | .hbm, ⟨14, _⟩ => ⟨S500000x1, .f32⟩
  | .hbm, ⟨15, _⟩ => ⟨S500000x1, .f32⟩
  | .hbm, ⟨16, _⟩ => ⟨S500000x64, .f32⟩
  | .hbm, ⟨17, _⟩ => ⟨S500000x64, .f32⟩
  | .hbm, ⟨18, _⟩ => ⟨S500000x64, .f32⟩
  | .hbm, ⟨19, _⟩ => ⟨S_, .f32⟩
  | .hbm, ⟨20, _⟩ => ⟨S500000, .f32⟩
  | .hbm, ⟨21, _⟩ => ⟨S500000x1, .f32⟩
  | .hbm, ⟨22, _⟩ => ⟨S_, .f32⟩
  | .hbm, ⟨23, _⟩ => ⟨S500000x1, .f32⟩
  | .hbm, ⟨24, _⟩ => ⟨S500000x1, .f32⟩
  | .hbm, ⟨25, _⟩ => ⟨S500000x64, .f32⟩
  | .hbm, ⟨26, _⟩ => ⟨S500000x64, .f32⟩
  | .hbm, ⟨27, _⟩ => ⟨S_, .f32⟩
  | .hbm, ⟨28, _⟩ => ⟨S500000x1, .f32⟩
  | .hbm, ⟨29, _⟩ => ⟨S500000x1, .f32⟩
  | .hbm, ⟨30, _⟩ => ⟨S500000x1, .f32⟩
  | .hbm, ⟨31, _⟩ => ⟨S500000x64, .f32⟩
  | .hbm, ⟨32, _⟩ => ⟨S500000x64, .f32⟩
  | .hbm, ⟨33, _⟩ => ⟨S1x64, .f32⟩
  | .hbm, ⟨34, _⟩ => ⟨S500000x64, .f32⟩
  | .hbm, ⟨35, _⟩ => ⟨S500000x64, .f32⟩
  | .hbm, ⟨36, _⟩ => ⟨S1x64, .f32⟩
  | .hbm, ⟨37, _⟩ => ⟨S500000x64, .f32⟩
  | .hbm, ⟨38, _⟩ => ⟨S500000x64, .f32⟩
  | .hbm, ⟨39, _⟩ => ⟨S_, .f32⟩
  | .hbm, ⟨40, _⟩ => ⟨S500000x64, .f32⟩
  | .hbm, ⟨41, _⟩ => ⟨S500000x64, .f32⟩
  | .hbm, ⟨42, _⟩ => ⟨S500000x1, .f32⟩
  | .hbm, ⟨43, _⟩ => ⟨S500000x1, .f32⟩
  | .hbm, ⟨44, _⟩ => ⟨S500000x1, .f32⟩
  | .hbm, ⟨45, _⟩ => ⟨S_, .f32⟩
  | .hbm, ⟨46, _⟩ => ⟨S500000x1, .f32⟩
  | .hbm, ⟨47, _⟩ => ⟨S500000x1, .f32⟩
  | .hbm, ⟨48, _⟩ => ⟨S_, .f32⟩
  | .hbm, ⟨49, _⟩ => ⟨S500000x1, .f32⟩
  | .hbm, ⟨50, _⟩ => ⟨S500000x1, .f32⟩
  | .hbm, ⟨51, _⟩ => ⟨S500000x128, .f32⟩
  | .hbm, ⟨52, _⟩ => ⟨S500000x128, .f32⟩
  | .hbm, ⟨53, _⟩ => ⟨S_, .f32⟩
  | .hbm, ⟨54, _⟩ => ⟨S500000x1, .f32⟩
  | .hbm, ⟨55, _⟩ => ⟨S500000x1, .f32⟩
  | .hbm, ⟨56, _⟩ => ⟨S500000x128, .f32⟩
  | .hbm, ⟨57, _⟩ => ⟨S500000x128, .f32⟩
  | .hbm, ⟨58, _⟩ => ⟨S500000x128, .f32⟩
  | .hbm, ⟨59, _⟩ => ⟨S500000x128, .f32⟩
  | .hbm, ⟨60, _⟩ => ⟨S500000x128, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  concatenates_S500000x64_S500000x96_S500000x160_d1 : Shape.Concatenates [S500000x64, S500000x96] S500000x160 1
  reducesTo_S500000x64_S500000_d1 : S500000x64.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x64_0_1 : S500000x1.BroadcastsInDim S500000x64 (![0, 1] : Fin 2 → Fin S500000x64.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S500000x1_S500000x128_0_1 : S500000x1.BroadcastsInDim S500000x128 (![0, 1] : Fin 2 → Fin S500000x128.rank)
  dot_S500000x160_S160x64_S500000x64_1_0_0_1_n_n_wf : DotDims.WF S500000x160 S160x64 S500000x64 [1] [0] [0] [1] [] []
  dot_S500000x64_S64x1_S500000x1_1_0_0_1_n_n_wf : DotDims.WF S500000x64 S64x1 S500000x1 [1] [0] [0] [1] [] []
  dot_S500000x64_S64x128_S500000x128_1_0_0_1_n_n_wf : DotDims.WF S500000x64 S64x128 S500000x128 [1] [0] [0] [1] [] []
  dot_S500000x96_S96x128_S500000x128_1_0_0_1_n_n_wf : DotDims.WF S500000x96 S96x128 S500000x128 [1] [0] [0] [1] [] []

variable [Facts₀]

def dot_S500000x160_S160x64_S500000x64_1_0_0_1_n_n : DotDims S500000x160 S160x64 S500000x64 where
  lhsContracting := [1]
  rhsContracting := [0]
  lhsNonContracting := [0]
  rhsNonContracting := [1]
  lhsBatch := []
  rhsBatch := []
  wf := dot_S500000x160_S160x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def dot_S500000x96_S96x128_S500000x128_1_0_0_1_n_n : DotDims S500000x96 S96x128 S500000x128 where
  lhsContracting := [1]
  rhsContracting := [0]
  lhsNonContracting := [0]
  rhsNonContracting := [1]
  lhsBatch := []
  rhsBatch := []
  wf := dot_S500000x96_S96x128_S500000x128_1_0_0_1_n_n_wf

class Facts : Prop extends Facts₀ where

variable [Facts]
-- ==== Proof.BodyKernel.lean ====
/-
  The body of the gate-fusion kernel, run once on whole staging buffers, at any float instance.

  The body loads the two streamed row blocks (detail rows, 12288 x 64, and context rows, 12288 x 96), the seven
  resident operands (the two output projections, the two halves of the first gate matrix, the layer-norm scale and
  shift rows and the second gate matrix as a row), computes the gated blend row by row and stores the 12288 x 128
  result block whole. Nothing else is touched: every input buffer ends as it began, and the result buffer ends
  holding `blend` of the nine input buffers' contents, whatever it held before (the body also reads the result
  buffer once, and discards what it read).
-/
import proofs.«180442_j23115513987443_2_alg».proof.Proof.Gen.Kernel.Frame
import proofs.«180442_j23115513987443_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The whole-buffer rectangles the body reads and writes through -/

abbrev rDetail : Rect S12288x64 := Rect.unit (s := S12288x64) ![0, 0] S12288x64.size inb_S12288x64_S12288x64_0_0
abbrev rContext : Rect S12288x96 := Rect.unit (s := S12288x96) ![0, 0] S12288x96.size inb_S12288x96_S12288x96_0_0
abbrev rProjD : Rect S64x128 := Rect.unit (s := S64x128) ![0, 0] S64x128.size inb_S64x128_S64x128_0_0
abbrev rProjC : Rect S96x128 := Rect.unit (s := S96x128) ![0, 0] S96x128.size inb_S96x128_S96x128_0_0
abbrev rGateD : Rect S64x64 := Rect.unit (s := S64x64) ![0, 0] S64x64.size inb_S64x64_S64x64_0_0
abbrev rGateC : Rect S96x64 := Rect.unit (s := S96x64) ![0, 0] S96x64.size inb_S96x64_S96x64_0_0
abbrev rRow : Rect S1x64 := Rect.unit (s := S1x64) ![0, 0] S1x64.size inb_S1x64_S1x64_0_0
abbrev rOut : Rect S12288x128 := Rect.unit (s := S12288x128) ![0, 0] S12288x128.size inb_S12288x128_S12288x128_0_0

/-- What the body leaves in the result buffer, as a function of what the nine input buffers hold: its one store,
    whole, of the blend payload over the gate's hidden activations (the second payload). -/
def blend (x0 : Vec F S12288x64 .f32) (x1 : Vec F S12288x96 .f32) (x2 : Vec F S64x128 .f32) (x3 : Vec F S96x128 .f32)
    (x4 : Vec F S64x64 .f32) (x5 : Vec F S96x64 .f32) (x6 x7 x8 : Vec F S1x64 .f32) : Vec F S12288x128 .f32 :=
  View.canon [⟨rOut, k0_pay1 (View.ld x0 rDetail) (View.ld x1 rContext)
    (k0_pay2 (View.ld x0 rDetail) (View.ld x1 rContext) (View.ld x4 rGateD) (View.ld x5 rGateC) (View.ld x6 rRow) (View.ld x7 rRow))
    (View.ld x8 rRow) (View.ld x2 rProjD) (View.ld x3 rProjC)⟩]

/-- The one store covers the result buffer. -/
theorem blend_cover (p0 : Vec F S12288x128 .f32) (y : S12288x128.Idx) :
    ∃ pc ∈ ([⟨rOut, p0⟩] : List (View.Piece (Elt F) S12288x128 .f32)), y ∈ pc.1.set :=
  View.cover_of_tiled [⟨rOut, p0⟩] S12288x128.size (by rfl) y

set_option maxHeartbeats 4000000 in
/-- The body's triple: from the nine input buffers at contents `x0 … x8` and the result buffer at anything, the body
    runs, faults nowhere, and ends with the inputs as they were and the result buffer at `blend x0 … x8`. -/
theorem sound_kernel (c : Dev nD) (E : Set ℕ) (i : grid0.Coords)
    (arg1 : Memref sig .tc .vmem S12288x64 .f32) (harg1 : arg1.IsWhole) (arg2 : Memref sig .tc .vmem S12288x96 .f32) (harg2 : arg2.IsWhole)
    (arg3 : Memref sig .tc .vmem S64x128 .f32) (harg3 : arg3.IsWhole) (arg4 : Memref sig .tc .vmem S96x128 .f32) (harg4 : arg4.IsWhole)
    (arg5 : Memref sig .tc .vmem S64x64 .f32) (harg5 : arg5.IsWhole) (arg6 : Memref sig .tc .vmem S96x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S12288x128 .f32) (harg10 : arg10.IsWhole)
    (x0 : Vec F S12288x64 .f32) (x1 : Vec F S12288x96 .f32) (x2 : Vec F S64x128 .f32) (x3 : Vec F S96x128 .f32)
    (x4 : Vec F S64x64 .f32) (x5 : Vec F S96x64 .f32) (x6 x7 x8 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (blend x0 x1 x2 x3 x4 x5 x6 x7 x8)) -∗ K ⟨⟩))
      ⊢ wp frame (wpE (defs₀ (F := F)) Variants.none c none) E
          (cc0__gatefusion_kernel i arg1 harg1 arg2 harg2 arg3 harg3 arg4 harg4 arg5 harg5 arg6 harg6 arg7 harg7 arg8 harg8 arg9 harg9 arg10 harg10) K := by
  simp only [cc0__gatefusion_kernel_eq_skeleton]; unfold cc0__gatefusion_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (blend_cover _)

end Cert.Kernel.Body

end
-- ==== Proof.FrameKernel.lean ====
/-
  The frame of the word-level kernel: it runs to the end, faults nowhere, and leaves its eight arguments unchanged.

  The grid has 41 points; point `t` streams rows `12288 t ‥ 12288 t + 12287` of the detail and context arrays and of
  the result. 41 blocks of 12288 rows overhang the 500000 rows by 3808: at the last point the two streamed input
  blocks and the result block are cut to 8480 rows, and the tail rows of the two input staging buffers hold words
  nothing names. The body reads those rows too, and what it computes from them lands in the tail of the result's
  staging buffer, which the cut write-back never copies out. At the word level the matrix products are functions
  of their whole operands, so nothing can be said here of the result block's rows inside the array either; the frame
  does not need it: the result window is forgotten (its buffer is handed over and taken back at any contents),
  and the seven resident operands and the two streamed ones are stated exactly — each resident buffer holds its
  whole array at every point, each streamed buffer its block on the rows inside the array.
-/
import proofs.«180442_j23115513987443_2_alg».proof.Proof.BodyKernel

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window nothing is said of: the result's. -/
def forgotten : Fin 10 → Bool := fun w => w.val == 9

/-- After the body at point `t`: the two streamed input buffers hold their blocks on the rows inside the array (filled
    out past the array's end with the zero word, which nothing reads), the seven resident buffers their whole arrays,
    the result buffer contents nothing names. -/
def datsF (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) :
    (datsF m 0 c).after 0 t = win0_0.fill (grid0.coords t) (fun _ => Scalar.ofBits .f32 0#32) (iblk m c 0 t) := by dsimp only [datsF]
theorem afterF_1 (c : Dev nD) (t : Fin cfg0.N) :
    (datsF m 0 c).after 1 t = win0_1.fill (grid0.coords t) (fun _ => Scalar.ofBits .f32 0#32) (iblk m c 1 t) := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]
theorem afterF_5 (c : Dev nD) (t : Fin cfg0.N) : (datsF m 0 c).after 5 t = iblk m c 5 t := by dsimp only [datsF]
theorem afterF_6 (c : Dev nD) (t : Fin cfg0.N) : (datsF m 0 c).after 6 t = iblk m c 6 t := by dsimp only [datsF]
theorem afterF_7 (c : Dev nD) (t : Fin cfg0.N) : (datsF m 0 c).after 7 t = iblk m c 7 t := by dsimp only [datsF]
theorem afterF_8 (c : Dev nD) (t : Fin cfg0.N) : (datsF m 0 c).after 8 t = iblk m c 8 t := by dsimp only [datsF]

/-- A streamed input's buffer, just fetched: its block on the rows inside the array, anything past them. -/
theorem beforeF_0 (c : Dev nD) (t : Fin cfg0.N) (d) :
    (datsF m 0 c).before 0 t d = win0_0.fill (grid0.coords t) d (iblk m c 0 t) := by
  unfold Dat.before; rw [if_pos (fetch0_0 t)]; rfl
theorem beforeF_1 (c : Dev nD) (t : Fin cfg0.N) (d) :
    (datsF m 0 c).before 1 t d = win0_1.fill (grid0.coords t) d (iblk m c 1 t) := by
  unfold Dat.before; rw [if_pos (fetch0_1 t)]; rfl
/-- A resident operand's buffer holds its whole array at every point: fetched at the first, untouched since. -/
theorem beforeF_2 (c : Dev nD) (t : Fin cfg0.N) (d) : (datsF m 0 c).before 2 t d = iblk m c 2 t :=
  before0_2_of m (datsF m 0 c) (A_eqF m c 2) (afterF_2 m c) t d
theorem beforeF_3 (c : Dev nD) (t : Fin cfg0.N) (d) : (datsF m 0 c).before 3 t d = iblk m c 3 t :=
  before0_3_of m (datsF m 0 c) (A_eqF m c 3) (afterF_3 m c) t d
theorem beforeF_4 (c : Dev nD) (t : Fin cfg0.N) (d) : (datsF m 0 c).before 4 t d = iblk m c 4 t :=
  before0_4_of m (datsF m 0 c) (A_eqF m c 4) (afterF_4 m c) t d
theorem beforeF_5 (c : Dev nD) (t : Fin cfg0.N) (d) : (datsF m 0 c).before 5 t d = iblk m c 5 t :=
  before0_5_of m (datsF m 0 c) (A_eqF m c 5) (afterF_5 m c) t d
theorem beforeF_6 (c : Dev nD) (t : Fin cfg0.N) (d) : (datsF m 0 c).before 6 t d = iblk m c 6 t :=
  before0_6_of m (datsF m 0 c) (A_eqF m c 6) (afterF_6 m c) t d
theorem beforeF_7 (c : Dev nD) (t : Fin cfg0.N) (d) : (datsF m 0 c).before 7 t d = iblk m c 7 t :=
  before0_7_of m (datsF m 0 c) (A_eqF m c 7) (afterF_7 m c) t d
theorem beforeF_8 (c : Dev nD) (t : Fin cfg0.N) (d) : (datsF m 0 c).before 8 t d = iblk m c 8 t :=
  before0_8_of m (datsF m 0 c) (A_eqF m c 8) (afterF_8 m c) t d

/-- What is left of a streamed buffer on the rows inside the array is its block. -/
theorem cutF_0 (c : Dev nD) (t : Fin cfg0.N) :
    (cfg0.win 0).cut (cfg0.grid.coords t) ((datsF m 0 c).after 0 t) = iblk m c 0 t := by
  rw [afterF_0]; exact win0_0.cut_fill _ _ _
theorem cutF_1 (c : Dev nD) (t : Fin cfg0.N) :
    (cfg0.win 1).cut (cfg0.grid.coords t) ((datsF m 0 c).after 1 t) = iblk m c 1 t := by
  rw [afterF_1]; exact win0_1.cut_fill _ _ _

/-! ## The body obligation -/

def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ d, owns (c : Thread nD τ) (st0_6 t) fullShare ((datsF m 0 c).before 6 t d))
    ∗ (∃ d, owns (c : Thread nD τ) (st0_7 t) fullShare ((datsF m 0 c).before 7 t d))
    ∗ (∃ d, owns (c : Thread nD τ) (st0_8 t) fullShare ((datsF m 0 c).before 8 t d))
    ∗ (∃ X, owns (c : Thread nD τ) (st0_9 t) fullShare X))

def bodyPostF (c : Dev nD) (t : Fin cfg0.N) : sProp 𝕄 :=
  iprop((datsF m 0 c).Φ t.succ ∗ (datsF m 0 c).owesAt () t.succ
    ∗ (∃ d, owns (c : Thread nD τ) (st0_0 t) fullShare ((cfg0.win 0).fill (cfg0.grid.coords t) d ((cfg0.win 0).cut (cfg0.grid.coords t) ((datsF m 0 c).after 0 t))))
    ∗ (∃ d, owns (c : Thread nD τ) (st0_1 t) fullShare ((cfg0.win 1).fill (cfg0.grid.coords t) d ((cfg0.win 1).cut (cfg0.grid.coords t) ((datsF m 0 c).after 1 t))))
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ owns (c : Thread nD τ) (st0_6 t) fullShare ((datsF m 0 c).after 6 t)
    ∗ owns (c : Thread nD τ) (st0_7 t) fullShare ((datsF m 0 c).after 7 t)
    ∗ owns (c : Thread nD τ) (st0_8 t) fullShare ((datsF m 0 c).after 8 t)
    ∗ (∃ X, owns (c : Thread nD τ) (st0_9 t) fullShare X))

/-- The body at any point: the triple of the body on the current staging buffers, the streamed ones holding their blocks
    filled out with whatever the fetch left past the array's end; the invariant and what the core owes pass through. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4, beforeF_5, beforeF_6, beforeF_7, beforeF_8]
  rw [show (datsF m 0 c).Φ t.succ = (datsF m 0 c).Φ t.castSucc from rfl,
    show (datsF m 0 c).owesAt () t.succ = (datsF m 0 c).owesAt () t.castSucc from rfl,
    cutF_0, cutF_1, afterF_2, afterF_3, afterF_4, afterF_5, afterF_6, afterF_7, afterF_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The body obligation at every point, the result window forgotten. -/
theorem body_obligationF (c : Dev nD) :
    BodyObligationLoose (datsF (F := F) m 0 c) (defs₀ (F := F)) Variants.none () Set.univ forgotten := fun t => by
  rw [bigSep_W0, bigSep_W0]
  exact sound_bodyF m c t

/-! ## The run and the frame -/

set_option backward.isDefEq.respectTransparency.types false in
/-- Every weakly fair execution of @main terminates, every input array of the pipeline and every other unscoped buffer
    ending as the region found it (nothing is said of the forgotten result). -/
theorem run_mainF : θ_run defs (onTc (τ := τ) (main (F := F))) (s₀ m ρ)
    (Pipeline.RDat.FramePost (cfgs 0) (fun c => (datsF m 0 c).toRForget forgotten) (V m)) :=
  Pipeline.RDat.θ_run_frame cfgs (0 : Fin 1) launch0 defs₀ Variants.none (fun c => (datsF m 0 c).toRForget forgotten) m ρ main
    (hbody := fun c => (body_obligationF m c).toRForget) (hshare := fun c => ((datsF m 0 c).toRForget forgotten).share_full fun _ => rfl)
    (howed := fun _ _ => rfl) (V := V m) (hmain := hmain m Variants.none) (hA := A_eqF m) (hΦ := fun _ _ => rfl)

/-- The frame claim's post, at any float instance: the four arrays the pipeline stages as inputs end at their entry
    contents (an input array is never written), the four the host operations read end as the region found them, and no
    host operation before the region writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(Eq.mp (congrFun (((datsF m 0 c).toRForget forgotten).ArrAt_in 0 rfl _) _) ((h c).1 0)).trans ((A_eqF m c 0).trans (V_main_arg0 m c)),
      (Eq.mp (congrFun (((datsF m 0 c).toRForget forgotten).ArrAt_in 1 rfl _) _) ((h c).1 1)).trans ((A_eqF m c 1).trans (V_main_arg1 m c)),
      (Eq.mp (congrFun (((datsF m 0 c).toRForget forgotten).ArrAt_in 2 rfl _) _) ((h c).1 2)).trans ((A_eqF m c 2).trans (V_main_arg2 m c)),
      (Eq.mp (congrFun (((datsF m 0 c).toRForget forgotten).ArrAt_in 3 rfl _) _) ((h c).1 3)).trans ((A_eqF m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_mainF m ρ)

end Cert.Kernel.Body

end
-- ==== Proof.BodyKernelIdeal.lean ====
/-
  The body of the gate-fusion kernel, run once on whole staging buffers, at any float instance.

  The body loads the two streamed row blocks (detail rows, 12288 x 64, and context rows, 12288 x 96), the seven
  resident operands (the two output projections, the two halves of the first gate matrix, the layer-norm scale and
  shift rows and the second gate matrix as a row), computes the gated blend row by row and stores the 12288 x 128
  result block whole. Nothing else is touched: every input buffer ends as it began, and the result buffer ends
  holding `blend` of the nine input buffers' contents, whatever it held before (the body also reads the result
  buffer once, and discards what it read).
-/
import proofs.«180442_j23115513987443_2_alg».proof.Proof.Gen.KernelIdeal.Frame
import proofs.«180442_j23115513987443_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The whole-buffer rectangles the body reads and writes through -/

abbrev rDetail : Rect S12288x64 := Rect.unit (s := S12288x64) ![0, 0] S12288x64.size inb_S12288x64_S12288x64_0_0
abbrev rContext : Rect S12288x96 := Rect.unit (s := S12288x96) ![0, 0] S12288x96.size inb_S12288x96_S12288x96_0_0
abbrev rProjD : Rect S64x128 := Rect.unit (s := S64x128) ![0, 0] S64x128.size inb_S64x128_S64x128_0_0
abbrev rProjC : Rect S96x128 := Rect.unit (s := S96x128) ![0, 0] S96x128.size inb_S96x128_S96x128_0_0
abbrev rGateD : Rect S64x64 := Rect.unit (s := S64x64) ![0, 0] S64x64.size inb_S64x64_S64x64_0_0
abbrev rGateC : Rect S96x64 := Rect.unit (s := S96x64) ![0, 0] S96x64.size inb_S96x64_S96x64_0_0
abbrev rRow : Rect S1x64 := Rect.unit (s := S1x64) ![0, 0] S1x64.size inb_S1x64_S1x64_0_0
abbrev rOut : Rect S12288x128 := Rect.unit (s := S12288x128) ![0, 0] S12288x128.size inb_S12288x128_S12288x128_0_0

/-- What the body leaves in the result buffer, as a function of what the nine input buffers hold: its one store,
    whole, of the blend payload over the gate's hidden activations (the second payload). -/
def blend (x0 : Vec F S12288x64 .f32) (x1 : Vec F S12288x96 .f32) (x2 : Vec F S64x128 .f32) (x3 : Vec F S96x128 .f32)
    (x4 : Vec F S64x64 .f32) (x5 : Vec F S96x64 .f32) (x6 x7 x8 : Vec F S1x64 .f32) : Vec F S12288x128 .f32 :=
  View.canon [⟨rOut, k0_pay1 (View.ld x0 rDetail) (View.ld x1 rContext)
    (k0_pay2 (View.ld x0 rDetail) (View.ld x1 rContext) (View.ld x4 rGateD) (View.ld x5 rGateC) (View.ld x6 rRow) (View.ld x7 rRow))
    (View.ld x8 rRow) (View.ld x2 rProjD) (View.ld x3 rProjC)⟩]

/-- The one store covers the result buffer. -/
theorem blend_cover (p0 : Vec F S12288x128 .f32) (y : S12288x128.Idx) :
    ∃ pc ∈ ([⟨rOut, p0⟩] : List (View.Piece (Elt F) S12288x128 .f32)), y ∈ pc.1.set :=
  View.cover_of_tiled [⟨rOut, p0⟩] S12288x128.size (by rfl) y

set_option maxHeartbeats 4000000 in
/-- The body's triple: from the nine input buffers at contents `x0 … x8` and the result buffer at anything, the body
    runs, faults nowhere, and ends with the inputs as they were and the result buffer at `blend x0 … x8`. -/
theorem sound_kernel (c : Dev nD) (E : Set ℕ) (i : grid0.Coords)
    (arg1 : Memref sig .tc .vmem S12288x64 .f32) (harg1 : arg1.IsWhole) (arg2 : Memref sig .tc .vmem S12288x96 .f32) (harg2 : arg2.IsWhole)
    (arg3 : Memref sig .tc .vmem S64x128 .f32) (harg3 : arg3.IsWhole) (arg4 : Memref sig .tc .vmem S96x128 .f32) (harg4 : arg4.IsWhole)
    (arg5 : Memref sig .tc .vmem S64x64 .f32) (harg5 : arg5.IsWhole) (arg6 : Memref sig .tc .vmem S96x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S12288x128 .f32) (harg10 : arg10.IsWhole)
    (x0 : Vec F S12288x64 .f32) (x1 : Vec F S12288x96 .f32) (x2 : Vec F S64x128 .f32) (x3 : Vec F S96x128 .f32)
    (x4 : Vec F S64x64 .f32) (x5 : Vec F S96x64 .f32) (x6 x7 x8 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (blend x0 x1 x2 x3 x4 x5 x6 x7 x8)) -∗ K ⟨⟩))
      ⊢ wp frame (wpE (defs₀ (F := F)) Variants.none c none) E
          (cc0__gatefusion_kernel i arg1 harg1 arg2 harg2 arg3 harg3 arg4 harg4 arg5 harg5 arg6 harg6 arg7 harg7 arg8 harg8 arg9 harg9 arg10 harg10) K := by
  simp only [cc0__gatefusion_kernel_eq_skeleton]; unfold cc0__gatefusion_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (blend_cover _)

end Cert.KernelIdeal.Body

end
-- ==== Proof.GateSpec.lean ====
/-
  The gate-fusion computation on ONE row, at the extended reals, in the two arrangements the two programs use, and
  the law that joins them.

  With `a` a detail row (64 entries), `b` a context row (96 entries), `G` the first gate matrix (160 x 64), `γ β` the
  layer-norm scale and shift, `w` the second gate matrix's one column, `Wd` and `Wc` the two projections to 128 columns:
    hidden  h k = Σ_j (a ++ b) j · G j k  =  Σ_j a j · G j k + Σ_j b j · G (64 + j) k      (a sum split in two)
    active  u k = max ((h k − μ) · (v + ε)^(-1/2) · γ k + β k) 0,  μ the mean of h, v the mean of (h − μ)²
    gate    g   = logistic (Σ_k u k · w k) = 1 / (1 + e^(−Σ_k u k · w k))
    out     q   = C q + g · (D q − C q)  =  (1 − g) · C q + g · D q,   D = a · Wd,  C = b · Wc.
  The first two equalities hold for any extended reals (a finite sum regrouped; the logistic's definition). The last is
  distributivity, which fails at the infinities: it needs `C q` and `D q` real — they are, being finite sums of products
  of real entries — and `g` real, which the logistic always is (0 at −∞, 1 at +∞).
-/
import Idealize.ShloMosaic.PureOps.Ideal
import Idealize.ShloMosaic.PureOps.Ideal.Laws
import Idealize.ShloMosaic.Lib.ValueIdx

noncomputable section

namespace Cert.GateRows

open Idealize.ShloMosaic Idealize.ShloMosaic.ValueIdx

/-! ## One output row, as a function of one detail row and one context row -/

/-- The divisor of the two means, the variance's guard, the rectifier's floor and the unit, as the float words both
    programs spell. -/
abbrev c64 : EReal := Ideal.ofBits .f32 0x42800000#32
abbrev cEps : EReal := Ideal.ofBits .f32 0x3727C5AC#32
abbrev cFloor : EReal := Ideal.ofBits .f32 0x00000000#32
abbrev cOne : EReal := Ideal.ofBits .f32 0x3F800000#32

/-- The gate's 64 hidden pre-activations of a detail row `a` and a context row `b`, the first gate matrix given in
    its two halves. -/
def hid (a : Fin 64 → EReal) (b : Fin 96 → EReal) (Gd : Fin 64 → Fin 64 → EReal) (Gc : Fin 96 → Fin 64 → EReal) (k : Fin 64) : EReal :=
  (∑ j : Fin 64, a j * Gd j k) + ∑ j : Fin 96, b j * Gc j k

/-- The mean of 64 numbers, as a quotient by the word for 64. -/
def mean (v : Fin 64 → EReal) : EReal := Ideal.div (∑ k : Fin 64, v k) c64

/-- Layer normalization (scale `γ`, shift `β`) followed by the rectifier. -/
def act (v γ β : Fin 64 → EReal) (k : Fin 64) : EReal :=
  max ((v k - mean v) * Ideal.rsqrt (mean (fun k' => (v k' - mean v) * (v k' - mean v)) + cEps) * γ k + β k) cFloor

/-- The gate: the logistic of the activations' product with the second gate matrix's one column. -/
def gate (u w : Fin 64 → EReal) : EReal := Ideal.logistic (∑ k : Fin 64, u k * w k)

/-- A row times a matrix with 128 columns. -/
def proj {n : Nat} (a : Fin n → EReal) (W : Fin n → Fin 128 → EReal) (q : Fin 128) : EReal := ∑ j : Fin n, a j * W j q

/-- One output row as the kernel arranges it: the context projection moved toward the detail projection by the gate. -/
def rowOut (a : Fin 64 → EReal) (b : Fin 96 → EReal) (Wd : Fin 64 → Fin 128 → EReal) (Wc : Fin 96 → Fin 128 → EReal)
    (Gd : Fin 64 → Fin 64 → EReal) (Gc : Fin 96 → Fin 64 → EReal) (γ β w : Fin 64 → EReal) (q : Fin 128) : EReal :=
  proj b Wc q + gate (act (hid a b Gd Gc) γ β) w * (proj a Wd q - proj b Wc q)

/-! ## The reference's arrangement -/

/-- The detail row followed by the context row: 160 entries. -/
def cat (a : Fin 64 → EReal) (b : Fin 96 → EReal) (j : Fin 160) : EReal :=
  if h : j.val < 64 then a ⟨j.val, h⟩ else b ⟨j.val - 64, by omega⟩

/-- The hidden pre-activations as one product of the joined row with the whole first gate matrix. -/
def hidCat (a : Fin 64 → EReal) (b : Fin 96 → EReal) (G : Fin 160 → Fin 64 → EReal) (k : Fin 64) : EReal :=
  ∑ j : Fin 160, cat a b j * G j k

/-- The gate as the reference spells the logistic: one over one plus the exponential of the negated logit. -/
def gateRef (u w : Fin 64 → EReal) : EReal := Ideal.div cOne (cOne + Ideal.exp (-(∑ k : Fin 64, u k * w k)))

/-- One output row as the reference arranges it: the convex combination of the two projections. -/
def rowRef (a : Fin 64 → EReal) (b : Fin 96 → EReal) (Wd : Fin 64 → Fin 128 → EReal) (Wc : Fin 96 → Fin 128 → EReal)
    (G : Fin 160 → Fin 64 → EReal) (γ β w : Fin 64 → EReal) (q : Fin 128) : EReal :=
  (cOne - gateRef (act (hidCat a b G) γ β) w) * proj b Wc q + gateRef (act (hidCat a b G) γ β) w * proj a Wd q

/-! ## The two arrangements agree -/

/-- The word for one denotes one. -/
theorem cOne_eq : cOne = 1 := IdealRules.sign_bit.ideal_onePat .f32

/-- A sum over the 160 joined entries is the sum over the first 64 plus the sum over the last 96. -/
theorem hidCat_eq (a : Fin 64 → EReal) (b : Fin 96 → EReal) (G : Fin 160 → Fin 64 → EReal) (k : Fin 64) :
    hidCat a b G k = hid a b (fun j => G ⟨j.val, by omega⟩) (fun j => G ⟨64 + j.val, by omega⟩) k := by
  unfold hidCat hid
  rw [show (∑ j : Fin 160, cat a b j * G j k) = ∑ j : Fin (64 + 96), cat a b j * G j k from rfl, Fin.sum_univ_add]
  refine congrArg₂ (· + ·) (Finset.sum_congr rfl fun j _ => ?_) (Finset.sum_congr rfl fun j _ => ?_)
  · have h1 : cat a b (Fin.castAdd 96 j) = a j := by
      unfold cat; rw [dif_pos (show (Fin.castAdd 96 j).val < 64 from j.isLt)]; rfl
    rw [h1]; rfl
  · have h2 : cat a b (Fin.natAdd 64 j) = b j := by
      unfold cat
      rw [dif_neg (show ¬(Fin.natAdd 64 j).val < 64 from by show ¬(64 + j.val < 64); omega)]
      exact congrArg b (Fin.ext (by show 64 + j.val - 64 = j.val; omega))
    rw [h2]; rfl

/-- The reference's spelling of the logistic is the logistic. -/
theorem gateRef_eq (u w : Fin 64 → EReal) : gateRef u w = gate u w := by
  unfold gateRef gate Ideal.logistic; rw [cOne_eq]

/-- The logistic of any extended real is a real number. -/
theorem logistic_real (x : EReal) : ∃ g : ℝ, Ideal.logistic x = (g : EReal) := by
  induction x using EReal.rec with
  | bot => exact ⟨0, by rw [Ideal.logistic_bot]; rfl⟩
  | coe r => exact ⟨_, Ideal.logistic_coe r⟩
  | top => exact ⟨1, by rw [Ideal.logistic_top]; rfl⟩

/-- A finite sum of real numbers, each read as an extended real, is the real sum read as one. -/
theorem coe_finset_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A row of reals times a matrix of reals is real. -/
theorem proj_real {n : Nat} (a : Fin n → ℝ) (W : Fin n → Fin 128 → ℝ) (q : Fin 128) :
    proj (fun j => (a j : EReal)) (fun j q => (W j q : EReal)) q = ((∑ j : Fin n, a j * W j q : ℝ) : EReal) := by
  unfold proj
  rw [← coe_finset_sum]
  exact Finset.sum_congr rfl fun j _ => (EReal.coe_mul _ _).symm

/-- Distributivity among reals read as extended reals: moving `C` toward `D` by `g` is their convex combination. -/
theorem blend_law (g C D : ℝ) : ((1 : EReal) - (g : EReal)) * (C : EReal) + (g : EReal) * (D : EReal) = (C : EReal) + (g : EReal) * ((D : EReal) - (C : EReal)) := by
  rw [← EReal.coe_one, ← EReal.coe_sub, ← EReal.coe_mul, ← EReal.coe_mul, ← EReal.coe_add, ← EReal.coe_sub, ← EReal.coe_mul,
    ← EReal.coe_add]
  exact congrArg _ (by ring)

/-- THE TWO ARRANGEMENTS AGREE on rows and projections of real numbers, whatever the gate's operands hold. -/
theorem rowRef_eq_rowOut (a : Fin 64 → EReal) (b : Fin 96 → EReal) (Wd : Fin 64 → Fin 128 → EReal) (Wc : Fin 96 → Fin 128 → EReal)
    (G : Fin 160 → Fin 64 → EReal) (γ β w : Fin 64 → EReal) (q : Fin 128)
    (ha : ∀ j, ∃ x : ℝ, a j = (x : EReal)) (hb : ∀ j, ∃ x : ℝ, b j = (x : EReal))
    (hWd : ∀ j q, ∃ x : ℝ, Wd j q = (x : EReal)) (hWc : ∀ j q, ∃ x : ℝ, Wc j q = (x : EReal)) :
    rowRef a b Wd Wc G γ β w q
      = rowOut a b Wd Wc (fun j => G ⟨j.val, by omega⟩) (fun j => G ⟨64 + j.val, by omega⟩) γ β w q := by
  choose a' ha' using ha
  choose b' hb' using hb
  choose Wd' hWd' using hWd
  choose Wc' hWc' using hWc
  obtain rfl : a = fun j => (a' j : EReal) := funext ha'
  obtain rfl : b = fun j => (b' j : EReal) := funext hb'
  obtain rfl : Wd = fun j q => (Wd' j q : EReal) := funext fun j => funext fun q => hWd' j q
  obtain rfl : Wc = fun j q => (Wc' j q : EReal) := funext fun j => funext fun q => hWc' j q
  unfold rowRef rowOut
  rw [show hidCat (fun j => (a' j : EReal)) (fun j => (b' j : EReal)) G
      = hid (fun j => (a' j : EReal)) (fun j => (b' j : EReal)) (fun j => G ⟨j.val, by omega⟩) (fun j => G ⟨64 + j.val, by omega⟩)
    from funext fun k => hidCat_eq _ _ G k]
  rw [gateRef_eq, proj_real, proj_real, cOne_eq]
  obtain ⟨g, hg⟩ := logistic_real (∑ k : Fin 64, act (hid (fun j => (a' j : EReal)) (fun j => (b' j : EReal)) (fun j => G ⟨j.val, by omega⟩)
    (fun j => G ⟨64 + j.val, by omega⟩)) γ β k * w k)
  unfold gate
  rw [hg]
  exact blend_law g _ _

end Cert.GateRows

end
-- ==== Proof.RowsIdeal.lean ====
/-
  The gate-fusion body's stored block at the extended reals, one entry at a time.

  Every entry of the block the body stores depends on ONE row of each streamed block: `blend_apply` says row `p` of
  the stored block is `rowOut` (the one-row function of GateSpec) of row `p` of the detail block and of the context block.
  On the way: the matrix products are exact sums over the contraction index, a lane reduction is the sum over the
  lane index, a keep-dims column is read at its one column, and a row operand broadcast down the block is read at its
  one row.
-/
import proofs.«180442_j23115513987443_2_alg».proof.Proof.BodyKernelIdeal
import proofs.«180442_j23115513987443_2_alg».proof.Proof.GateSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Rows

open Cert.KernelIdeal Cert.KernelIdeal.Gen Cert.GateRows
open Idealize.ShloMosaic Idealize.ShloMosaic.ValueIdx

/-! ## Layout operations the body uses, read at an index -/

/-- A length-`a` vector cast to a keep-dims column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A keep-dims column `[a, 1]` broadcast across `b` lanes reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` block read at row `p`: the sum of the row's `b` entries. -/
theorem laneSum_apply {a b : ℕ} (src : FVec Ideal ⟨2, ![a, b]⟩ .f32) (h : (⟨2, ![a, b]⟩ : Shape).Reduces [1] ⟨1, ![a]⟩) (p : Fin a) :
    FloatOps.reduceAdd [1] h src (ix1 p) = ∑ k : Fin b, src (ix2 p k) := by
  refine (Ideal.reduceAdd_single h src (ix1 p)).trans ?_
  refine Finset.sum_congr rfl fun k _ => congrArg src ?_
  funext ax
  match ax with
  | ⟨0, _⟩ => rfl
  | ⟨1, _⟩ => rfl

/-! ## The four matrix products at an index -/

/-- The 64-term product of a row block with a resident matrix, into the zero accumulator, read at row `p`, column `q`:
    the sum over the contraction index of the row's entries times the matrix's column. -/
theorem matmul_gd_apply (x : FVec Ideal S12288x64 .f32) (W : FVec Ideal S64x64 .f32) (prec : Option ContractPrecision) (p : Fin 12288) (q : Fin 64) :
    matmul dot_S12288x64_S64x64_S12288x64_1_0_0_1_n_n prec x W (constant S12288x64 .f32 0x00000000#32) (ix2 p q)
      = ∑ j : Fin 64, x (ix2 p j) * W (ix2 j q) := by
  refine (Ideal.matmul_constant_zero_apply dot_S12288x64_S64x64_S12288x64_1_0_0_1_n_n prec x W (ix2 p q)).trans ?_
  rw [← Equiv.sum_comp (ValueIdx.contrEquiv1 dot_S12288x64_S64x64_S12288x64_1_0_0_1_n_n 64 rfl rfl).symm]
  refine Finset.sum_congr rfl fun j _ => ?_
  have hj := ValueIdx.contrEquiv1_symm_val dot_S12288x64_S64x64_S12288x64_1_0_0_1_n_n 64 rfl rfl j
  have l0 : ∀ κ : dot_S12288x64_S64x64_S12288x64_1_0_0_1_n_n.contr.Idx, (dot_S12288x64_S64x64_S12288x64_1_0_0_1_n_n.lhsIdx (ix2 p q) κ 0).val = p.val := fun κ => by
    unfold DotDims.lhsIdx
    rw [dif_neg (show ¬(0 : Fin S12288x64.rank) ∈ dot_S12288x64_S64x64_S12288x64_1_0_0_1_n_n.lhsBatch by decide), dif_pos (show (0 : Fin S12288x64.rank) ∈ dot_S12288x64_S64x64_S12288x64_1_0_0_1_n_n.lhsNonContracting by decide)]
    rfl
  have r1 : ∀ κ : dot_S12288x64_S64x64_S12288x64_1_0_0_1_n_n.contr.Idx, (dot_S12288x64_S64x64_S12288x64_1_0_0_1_n_n.rhsIdx (ix2 p q) κ 1).val = q.val := fun κ => by
    unfold DotDims.rhsIdx
    rw [dif_neg (show ¬(1 : Fin S64x64.rank) ∈ dot_S12288x64_S64x64_S12288x64_1_0_0_1_n_n.rhsBatch by decide), dif_pos (show (1 : Fin S64x64.rank) ∈ dot_S12288x64_S64x64_S12288x64_1_0_0_1_n_n.rhsNonContracting by decide)]
    rfl
  have el : dot_S12288x64_S64x64_S12288x64_1_0_0_1_n_n.lhsIdx (ix2 p q) ((ValueIdx.contrEquiv1 dot_S12288x64_S64x64_S12288x64_1_0_0_1_n_n 64 rfl rfl).symm j) = ix2 p j := funext fun a => Fin.ext (by
    match a with
    | ⟨0, _⟩ => exact l0 _
    | ⟨1, _⟩ => exact (dot_S12288x64_S64x64_S12288x64_1_0_0_1_n_n.lhsIdx_val_of_single rfl (ix2 p q) _).trans hj)
  have er : dot_S12288x64_S64x64_S12288x64_1_0_0_1_n_n.rhsIdx (ix2 p q) ((ValueIdx.contrEquiv1 dot_S12288x64_S64x64_S12288x64_1_0_0_1_n_n 64 rfl rfl).symm j) = ix2 j q := funext fun a => Fin.ext (by
    match a with
    | ⟨0, _⟩ => exact (dot_S12288x64_S64x64_S12288x64_1_0_0_1_n_n.rhsIdx_val_of_single rfl (ix2 p q) _).trans hj
    | ⟨1, _⟩ => exact r1 _)
  rw [el, er]

/-- The 96-term product of a row block with a resident matrix, into the zero accumulator, read at row `p`, column `q`:
    the sum over the contraction index of the row's entries times the matrix's column. -/
theorem matmul_gc_apply (x : FVec Ideal S12288x96 .f32) (W : FVec Ideal S96x64 .f32) (prec : Option ContractPrecision) (p : Fin 12288) (q : Fin 64) :
    matmul dot_S12288x96_S96x64_S12288x64_1_0_0_1_n_n prec x W (constant S12288x64 .f32 0x00000000#32) (ix2 p q)
      = ∑ j : Fin 96, x (ix2 p j) * W (ix2 j q) := by
  refine (Ideal.matmul_constant_zero_apply dot_S12288x96_S96x64_S12288x64_1_0_0_1_n_n prec x W (ix2 p q)).trans ?_
  rw [← Equiv.sum_comp (ValueIdx.contrEquiv1 dot_S12288x96_S96x64_S12288x64_1_0_0_1_n_n 96 rfl rfl).symm]
  refine Finset.sum_congr rfl fun j _ => ?_
  have hj := ValueIdx.contrEquiv1_symm_val dot_S12288x96_S96x64_S12288x64_1_0_0_1_n_n 96 rfl rfl j
  have l0 : ∀ κ : dot_S12288x96_S96x64_S12288x64_1_0_0_1_n_n.contr.Idx, (dot_S12288x96_S96x64_S12288x64_1_0_0_1_n_n.lhsIdx (ix2 p q) κ 0).val = p.val := fun κ => by
    unfold DotDims.lhsIdx
    rw [dif_neg (show ¬(0 : Fin S12288x96.rank) ∈ dot_S12288x96_S96x64_S12288x64_1_0_0_1_n_n.lhsBatch by decide), dif_pos (show (0 : Fin S12288x96.rank) ∈ dot_S12288x96_S96x64_S12288x64_1_0_0_1_n_n.lhsNonContracting by decide)]
    rfl
  have r1 : ∀ κ : dot_S12288x96_S96x64_S12288x64_1_0_0_1_n_n.contr.Idx, (dot_S12288x96_S96x64_S12288x64_1_0_0_1_n_n.rhsIdx (ix2 p q) κ 1).val = q.val := fun κ => by
    unfold DotDims.rhsIdx
    rw [dif_neg (show ¬(1 : Fin S96x64.rank) ∈ dot_S12288x96_S96x64_S12288x64_1_0_0_1_n_n.rhsBatch by decide), dif_pos (show (1 : Fin S96x64.rank) ∈ dot_S12288x96_S96x64_S12288x64_1_0_0_1_n_n.rhsNonContracting by decide)]
    rfl
  have el : dot_S12288x96_S96x64_S12288x64_1_0_0_1_n_n.lhsIdx (ix2 p q) ((ValueIdx.contrEquiv1 dot_S12288x96_S96x64_S12288x64_1_0_0_1_n_n 96 rfl rfl).symm j) = ix2 p j := funext fun a => Fin.ext (by
    match a with
    | ⟨0, _⟩ => exact l0 _
    | ⟨1, _⟩ => exact (dot_S12288x96_S96x64_S12288x64_1_0_0_1_n_n.lhsIdx_val_of_single rfl (ix2 p q) _).trans hj)
  have er : dot_S12288x96_S96x64_S12288x64_1_0_0_1_n_n.rhsIdx (ix2 p q) ((ValueIdx.contrEquiv1 dot_S12288x96_S96x64_S12288x64_1_0_0_1_n_n 96 rfl rfl).symm j) = ix2 j q := funext fun a => Fin.ext (by
    match a with
    | ⟨0, _⟩ => exact (dot_S12288x96_S96x64_S12288x64_1_0_0_1_n_n.rhsIdx_val_of_single rfl (ix2 p q) _).trans hj
    | ⟨1, _⟩ => exact r1 _)
  rw [el, er]

/-- The 64-term product of a row block with a resident matrix, into the zero accumulator, read at row `p`, column `q`:
    the sum over the contraction index of the row's entries times the matrix's column. -/
theorem matmul_pd_apply (x : FVec Ideal S12288x64 .f32) (W : FVec Ideal S64x128 .f32) (prec : Option ContractPrecision) (p : Fin 12288) (q : Fin 128) :
    matmul dot_S12288x64_S64x128_S12288x128_1_0_0_1_n_n prec x W (constant S12288x128 .f32 0x00000000#32) (ix2 p q)
      = ∑ j : Fin 64, x (ix2 p j) * W (ix2 j q) := by
  refine (Ideal.matmul_constant_zero_apply dot_S12288x64_S64x128_S12288x128_1_0_0_1_n_n prec x W (ix2 p q)).trans ?_
  rw [← Equiv.sum_comp (ValueIdx.contrEquiv1 dot_S12288x64_S64x128_S12288x128_1_0_0_1_n_n 64 rfl rfl).symm]
  refine Finset.sum_congr rfl fun j _ => ?_
  have hj := ValueIdx.contrEquiv1_symm_val dot_S12288x64_S64x128_S12288x128_1_0_0_1_n_n 64 rfl rfl j
  have l0 : ∀ κ : dot_S12288x64_S64x128_S12288x128_1_0_0_1_n_n.contr.Idx, (dot_S12288x64_S64x128_S12288x128_1_0_0_1_n_n.lhsIdx (ix2 p q) κ 0).val = p.val := fun κ => by
    unfold DotDims.lhsIdx
    rw [dif_neg (show ¬(0 : Fin S12288x64.rank) ∈ dot_S12288x64_S64x128_S12288x128_1_0_0_1_n_n.lhsBatch by decide), dif_pos (show (0 : Fin S12288x64.rank) ∈ dot_S12288x64_S64x128_S12288x128_1_0_0_1_n_n.lhsNonContracting by decide)]
    rfl
  have r1 : ∀ κ : dot_S12288x64_S64x128_S12288x128_1_0_0_1_n_n.contr.Idx, (dot_S12288x64_S64x128_S12288x128_1_0_0_1_n_n.rhsIdx (ix2 p q) κ 1).val = q.val := fun κ => by
    unfold DotDims.rhsIdx
    rw [dif_neg (show ¬(1 : Fin S64x128.rank) ∈ dot_S12288x64_S64x128_S12288x128_1_0_0_1_n_n.rhsBatch by decide), dif_pos (show (1 : Fin S64x128.rank) ∈ dot_S12288x64_S64x128_S12288x128_1_0_0_1_n_n.rhsNonContracting by decide)]
    rfl
  have el : dot_S12288x64_S64x128_S12288x128_1_0_0_1_n_n.lhsIdx (ix2 p q) ((ValueIdx.contrEquiv1 dot_S12288x64_S64x128_S12288x128_1_0_0_1_n_n 64 rfl rfl).symm j) = ix2 p j := funext fun a => Fin.ext (by
    match a with
    | ⟨0, _⟩ => exact l0 _
    | ⟨1, _⟩ => exact (dot_S12288x64_S64x128_S12288x128_1_0_0_1_n_n.lhsIdx_val_of_single rfl (ix2 p q) _).trans hj)
  have er : dot_S12288x64_S64x128_S12288x128_1_0_0_1_n_n.rhsIdx (ix2 p q) ((ValueIdx.contrEquiv1 dot_S12288x64_S64x128_S12288x128_1_0_0_1_n_n 64 rfl rfl).symm j) = ix2 j q := funext fun a => Fin.ext (by
    match a with
    | ⟨0, _⟩ => exact (dot_S12288x64_S64x128_S12288x128_1_0_0_1_n_n.rhsIdx_val_of_single rfl (ix2 p q) _).trans hj
    | ⟨1, _⟩ => exact r1 _)
  rw [el, er]

/-- The 96-term product of a row block with a resident matrix, into the zero accumulator, read at row `p`, column `q`:
    the sum over the contraction index of the row's entries times the matrix's column. -/
theorem matmul_pc_apply (x : FVec Ideal S12288x96 .f32) (W : FVec Ideal S96x128 .f32) (prec : Option ContractPrecision) (p : Fin 12288) (q : Fin 128) :
    matmul dot_S12288x96_S96x128_S12288x128_1_0_0_1_n_n prec x W (constant S12288x128 .f32 0x00000000#32) (ix2 p q)
      = ∑ j : Fin 96, x (ix2 p j) * W (ix2 j q) := by
  refine (Ideal.matmul_constant_zero_apply dot_S12288x96_S96x128_S12288x128_1_0_0_1_n_n prec x W (ix2 p q)).trans ?_
  rw [← Equiv.sum_comp (ValueIdx.contrEquiv1 dot_S12288x96_S96x128_S12288x128_1_0_0_1_n_n 96 rfl rfl).symm]
  refine Finset.sum_congr rfl fun j _ => ?_
  have hj := ValueIdx.contrEquiv1_symm_val dot_S12288x96_S96x128_S12288x128_1_0_0_1_n_n 96 rfl rfl j
  have l0 : ∀ κ : dot_S12288x96_S96x128_S12288x128_1_0_0_1_n_n.contr.Idx, (dot_S12288x96_S96x128_S12288x128_1_0_0_1_n_n.lhsIdx (ix2 p q) κ 0).val = p.val := fun κ => by
    unfold DotDims.lhsIdx
    rw [dif_neg (show ¬(0 : Fin S12288x96.rank) ∈ dot_S12288x96_S96x128_S12288x128_1_0_0_1_n_n.lhsBatch by decide), dif_pos (show (0 : Fin S12288x96.rank) ∈ dot_S12288x96_S96x128_S12288x128_1_0_0_1_n_n.lhsNonContracting by decide)]
    rfl
  have r1 : ∀ κ : dot_S12288x96_S96x128_S12288x128_1_0_0_1_n_n.contr.Idx, (dot_S12288x96_S96x128_S12288x128_1_0_0_1_n_n.rhsIdx (ix2 p q) κ 1).val = q.val := fun κ => by
    unfold DotDims.rhsIdx
    rw [dif_neg (show ¬(1 : Fin S96x128.rank) ∈ dot_S12288x96_S96x128_S12288x128_1_0_0_1_n_n.rhsBatch by decide), dif_pos (show (1 : Fin S96x128.rank) ∈ dot_S12288x96_S96x128_S12288x128_1_0_0_1_n_n.rhsNonContracting by decide)]
    rfl
  have el : dot_S12288x96_S96x128_S12288x128_1_0_0_1_n_n.lhsIdx (ix2 p q) ((ValueIdx.contrEquiv1 dot_S12288x96_S96x128_S12288x128_1_0_0_1_n_n 96 rfl rfl).symm j) = ix2 p j := funext fun a => Fin.ext (by
    match a with
    | ⟨0, _⟩ => exact l0 _
    | ⟨1, _⟩ => exact (dot_S12288x96_S96x128_S12288x128_1_0_0_1_n_n.lhsIdx_val_of_single rfl (ix2 p q) _).trans hj)
  have er : dot_S12288x96_S96x128_S12288x128_1_0_0_1_n_n.rhsIdx (ix2 p q) ((ValueIdx.contrEquiv1 dot_S12288x96_S96x128_S12288x128_1_0_0_1_n_n 96 rfl rfl).symm j) = ix2 j q := funext fun a => Fin.ext (by
    match a with
    | ⟨0, _⟩ => exact (dot_S12288x96_S96x128_S12288x128_1_0_0_1_n_n.rhsIdx_val_of_single rfl (ix2 p q) _).trans hj
    | ⟨1, _⟩ => exact r1 _)
  rw [el, er]

/-! ## The body's two payloads at an index -/

/-- The lane sum of a 12288 x 64 block at row `p`, at the body's own shape names. -/
theorem laneSum64_apply (src : FVec Ideal S12288x64 .f32) (p : Fin 12288) :
    Ideal.reduceAdd reduces_S12288x64_S12288 src (ix1 p) = ∑ k : Fin 64, src (ix2 p k) :=
  laneSum_apply src reduces_S12288x64_S12288 p

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- The gate's hidden activations (the body's first part) at row `p`, unit `k`. -/
theorem pay2_apply (x0 : FVec Ideal S12288x64 .f32) (x1 : FVec Ideal S12288x96 .f32) (x4 : FVec Ideal S64x64 .f32) (x5 : FVec Ideal S96x64 .f32)
    (x6 x7 : FVec Ideal S1x64 .f32) (p : Fin 12288) (k : Fin 64) :
    k0_pay2 (F := Ideal) x0 x1 x4 x5 x6 x7 (ix2 p k)
      = act (hid (fun j => x0 (ix2 p j)) (fun j => x1 (ix2 p j)) (fun j k => x4 (ix2 j k)) (fun j k => x5 (ix2 j k)))
          (fun k => x6 (ix2 (0 : Fin 1) k)) (fun k => x7 (ix2 (0 : Fin 1) k)) k := by
  unfold k0_pay2
  simp only [multiReduction, Ideal.reduceAdd_def]
  simp only [shapeCast_self, maximumf_apply, addf_apply, mulf_apply, subf_apply, divf_apply, broadcast_apply, rsqrt_apply,
    broadcastTo_a1_ab_apply, broadcastTo_1b_ab_apply, shapeCast_a_a1_apply, laneSum64_apply, matmul_gd_apply, matmul_gc_apply]
  rfl

/-- The blend (the body's stored value) at row `p`, column `q`, over any hidden activations `u`. -/
theorem pay1_apply (x0 : FVec Ideal S12288x64 .f32) (x1 : FVec Ideal S12288x96 .f32) (u : FVec Ideal S12288x64 .f32) (x8 : FVec Ideal S1x64 .f32)
    (x2 : FVec Ideal S64x128 .f32) (x3 : FVec Ideal S96x128 .f32) (p : Fin 12288) (q : Fin 128) :
    k0_pay1 (F := Ideal) x0 x1 u x8 x2 x3 (ix2 p q)
      = proj (fun j => x1 (ix2 p j)) (fun j q => x3 (ix2 j q)) q
        + gate (fun k => u (ix2 p k)) (fun k => x8 (ix2 (0 : Fin 1) k))
          * (proj (fun j => x0 (ix2 p j)) (fun j q => x2 (ix2 j q)) q - proj (fun j => x1 (ix2 p j)) (fun j q => x3 (ix2 j q)) q) := by
  unfold k0_pay1
  simp only [multiReduction, Ideal.reduceAdd_def]
  simp only [shapeCast_self, addf_apply, mulf_apply, subf_apply, logistic_apply,
    broadcastTo_a1_ab_apply, broadcastTo_1b_ab_apply, shapeCast_a_a1_apply, laneSum64_apply, matmul_pd_apply, matmul_pc_apply]
  rfl

/-- What the body stores is its blend payload over its hidden-activation payload, of the buffers' whole contents (at
    any float instance): the loads and the store go through the whole-buffer rectangles. -/
theorem blend_eq {F : FTy → Type} [FloatOps F] (x0 : Vec F S12288x64 .f32) (x1 : Vec F S12288x96 .f32) (x2 : Vec F S64x128 .f32) (x3 : Vec F S96x128 .f32)
    (x4 : Vec F S64x64 .f32) (x5 : Vec F S96x64 .f32) (x6 x7 x8 : Vec F S1x64 .f32) :
    Body.blend x0 x1 x2 x3 x4 x5 x6 x7 x8 = k0_pay1 x0 x1 (k0_pay2 x0 x1 x4 x5 x6 x7) x8 x2 x3 := by
  have hz : (![0, 0] : Fin 2 → Nat) = fun _ => 0 := funext fun a => by fin_cases a <;> rfl
  unfold Body.blend
  rw [View.canon_unit_zero hz]
  simp only [View.ld_unit_zero (S := S12288x64) hz, View.ld_unit_zero (S := S12288x96) hz, View.ld_unit_zero (S := S64x128) hz,
    View.ld_unit_zero (S := S96x128) hz, View.ld_unit_zero (S := S64x64) hz, View.ld_unit_zero (S := S96x64) hz,
    View.ld_unit_zero (S := S1x64) hz]

/-- THE BODY'S RESULT, ENTRY BY ENTRY: row `p` of the stored block is `rowOut` of row `p` of the two streamed blocks. -/
theorem blend_apply (x0 : FVec Ideal S12288x64 .f32) (x1 : FVec Ideal S12288x96 .f32) (x2 : FVec Ideal S64x128 .f32) (x3 : FVec Ideal S96x128 .f32)
    (x4 : FVec Ideal S64x64 .f32) (x5 : FVec Ideal S96x64 .f32) (x6 x7 x8 : FVec Ideal S1x64 .f32) (p : Fin 12288) (q : Fin 128) :
    Body.blend (F := Ideal) x0 x1 x2 x3 x4 x5 x6 x7 x8 (ix2 p q)
      = rowOut (fun j => x0 (ix2 p j)) (fun j => x1 (ix2 p j)) (fun j q => x2 (ix2 j q)) (fun j q => x3 (ix2 j q))
          (fun j k => x4 (ix2 j k)) (fun j k => x5 (ix2 j k)) (fun k => x6 (ix2 (0 : Fin 1) k)) (fun k => x7 (ix2 (0 : Fin 1) k))
          (fun k => x8 (ix2 (0 : Fin 1) k)) q := by
  rw [blend_eq, pay1_apply]
  simp only [pay2_apply]
  rfl

end Cert.KernelIdeal.Rows

end
-- ==== Proof.FrameKernelIdeal.lean ====
/-
  The idealized kernel's run, with the result block named.

  As for the word-level kernel, point `t` of the 41 streams rows `12288 t ‥` of the detail, context and result arrays,
  and the last point's three blocks are cut to the 8480 rows inside the arrays, the tails of the two streamed input
  buffers then holding words nothing names. At the extended reals every row of the body's result depends on that row
  of the two streamed blocks alone (`blend_apply`), so the rows inside the array of what the body stores do not
  depend on those words: the result buffer is stated, on the rows its write-back moves, as `blend` of the blocks filled
  out with zeros.
-/
import proofs.«180442_j23115513987443_2_alg».proof.Proof.RowsIdeal

set_option maxRecDepth 16384

noncomputable section

namespace Cert.KernelIdeal.Body

open Cert.KernelIdeal Cert.KernelIdeal.Gen Cert.KernelIdeal.Rows Cert.GateRows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Rows inside the array -/

/-- The three streamed windows are cut alike: at every point the detail, context and result blocks keep the same
    number of rows, and all of their 64, 96 and 128 columns. -/
theorem cuts_agree : ∀ t : Fin cfg0.N,
    win0_0.xsize (grid0.coords t) 0 = win0_9.xsize (grid0.coords t) 0 ∧ win0_0.xsize (grid0.coords t) 1 = 64
    ∧ win0_1.xsize (grid0.coords t) 0 = win0_9.xsize (grid0.coords t) 0 ∧ win0_1.xsize (grid0.coords t) 1 = 96 :=
  (by decide +kernel : ∀ t : Fin grid0.N,
    win0_0.xsize (grid0.coords t) 0 = win0_9.xsize (grid0.coords t) 0 ∧ win0_0.xsize (grid0.coords t) 1 = 64
    ∧ win0_1.xsize (grid0.coords t) 0 = win0_9.xsize (grid0.coords t) 0 ∧ win0_1.xsize (grid0.coords t) 1 = 96)

/-- Two contents of a block that agree on the part a transfer moves agree at every index of that part. -/
theorem eq_of_cut_eq {G : Pipeline.Grid} (w : Pipeline.Window sig G) {α : Type} (i : G.Coords) {X Y : w.block.Idx → α}
    (h : w.cut i X = w.cut i Y) (y : w.block.Idx) (hy : w.moved i y = true) : X y = Y y := by
  have e1 := congrFun (w.fill_congr_cut i h) y
  have e2 := congrFun (w.fill_cut i Y) y
  unfold Window.fill at e1 e2
  rw [dif_pos hy] at e1 e2
  exact e1.symm.trans e2

/-- ROW LOCALITY THROUGH THE CUT: two pairs of streamed buffers that agree on the rows inside the array give results
    that agree on the rows inside the array. -/
theorem cut_blend_congr (t : Fin cfg0.N) (X0 X0' : FVec Ideal S12288x64 .f32) (X1 X1' : FVec Ideal S12288x96 .f32)
    (x2 : FVec Ideal S64x128 .f32) (x3 : FVec Ideal S96x128 .f32) (x4 : FVec Ideal S64x64 .f32) (x5 : FVec Ideal S96x64 .f32)
    (x6 x7 x8 : FVec Ideal S1x64 .f32)
    (h0 : win0_0.cut (grid0.coords t) X0 = win0_0.cut (grid0.coords t) X0')
    (h1 : win0_1.cut (grid0.coords t) X1 = win0_1.cut (grid0.coords t) X1') :
    win0_9.cut (grid0.coords t) (blend (F := Ideal) X0 X1 x2 x3 x4 x5 x6 x7 x8) = win0_9.cut (grid0.coords t) (blend (F := Ideal) X0' X1' x2 x3 x4 x5 x6 x7 x8) := by
  funext j
  show blend (F := Ideal) X0 X1 x2 x3 x4 x5 x6 x7 x8 (win0_9.xinj (grid0.coords t) j) = blend (F := Ideal) X0' X1' x2 x3 x4 x5 x6 x7 x8 (win0_9.xinj (grid0.coords t) j)
  obtain ⟨p, q, hpq⟩ : ∃ (p : Fin 12288) (q : Fin 128), win0_9.xinj (grid0.coords t) j = ix2 p q := ⟨_, _, eq_ix2 _⟩
  have hp : p.val < win0_9.xsize (grid0.coords t) 0 := by
    have e : ((win0_9.xinj (grid0.coords t) j) 0).val = p.val := by rw [hpq]; rfl
    rw [← e]; exact (j 0).isLt
  obtain ⟨c00, c01, c10, c11⟩ := cuts_agree t
  have r0 : (fun k : Fin 64 => X0 (ix2 p k)) = fun k => X0' (ix2 p k) := funext fun k =>
    eq_of_cut_eq win0_0 (grid0.coords t) h0 (ix2 p k) ((win0_0.moved_iff (grid0.coords t) _).mpr fun a => by
      match a with
      | ⟨0, _⟩ => show p.val < win0_0.xsize (grid0.coords t) 0; rw [c00]; exact hp
      | ⟨1, _⟩ => show k.val < win0_0.xsize (grid0.coords t) 1; rw [c01]; exact k.isLt)
  have r1 : (fun k : Fin 96 => X1 (ix2 p k)) = fun k => X1' (ix2 p k) := funext fun k =>
    eq_of_cut_eq win0_1 (grid0.coords t) h1 (ix2 p k) ((win0_1.moved_iff (grid0.coords t) _).mpr fun a => by
      match a with
      | ⟨0, _⟩ => show p.val < win0_1.xsize (grid0.coords t) 0; rw [c10]; exact hp
      | ⟨1, _⟩ => show k.val < win0_1.xsize (grid0.coords t) 1; rw [c11]; exact k.isLt)
  rw [hpq, blend_apply, blend_apply, r0, r1]

/-! ## The proof data -/

/-- After the body at point `t`: the two streamed input buffers hold their blocks on the rows inside the array, filled out
    with the zero word; the seven resident buffers their whole arrays; the result buffer the blend of those. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => Scalar.ofBits (F := Ideal) .f32 0#32) (iblk m c 0 t)
    | ⟨1, _⟩ => win0_1.fill (grid0.coords t) (fun _ => Scalar.ofBits (F := Ideal) .f32 0#32) (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => blend (F := Ideal) (win0_0.fill (grid0.coords t) (fun _ => Scalar.ofBits (F := Ideal) .f32 0#32) (iblk m c 0 t))
        (win0_1.fill (grid0.coords t) (fun _ => Scalar.ofBits (F := Ideal) .f32 0#32) (iblk m c 1 t))
        (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => Scalar.ofBits (F := Ideal) .f32 0#32) (iblk m c 0 t) := by dsimp only [dats]
theorem after_1 (c : Dev nD) (t : Fin cfg0.N) :
    (dats m 0 c).after 1 t = win0_1.fill (grid0.coords t) (fun _ => Scalar.ofBits (F := Ideal) .f32 0#32) (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) :
    (dats m 0 c).after 9 t = blend (F := Ideal) (win0_0.fill (grid0.coords t) (fun _ => Scalar.ofBits (F := Ideal) .f32 0#32) (iblk m c 0 t))
        (win0_1.fill (grid0.coords t) (fun _ => Scalar.ofBits (F := Ideal) .f32 0#32) (iblk m c 1 t))
        (iblk m c 2 t) (iblk m c 3 t) (iblk m c 4 t) (iblk m c 5 t) (iblk m c 6 t) (iblk m c 7 t) (iblk m c 8 t) := by dsimp only [dats]

theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem cut_0 (c : Dev nD) (t : Fin cfg0.N) :
    (cfg0.win 0).cut (cfg0.grid.coords t) ((dats m 0 c).after 0 t) = iblk m c 0 t := by
  rw [after_0]; exact win0_0.cut_fill _ _ _
theorem cut_1 (c : Dev nD) (t : Fin cfg0.N) :
    (cfg0.win 1).cut (cfg0.grid.coords t) ((dats m 0 c).after 1 t) = iblk m c 1 t := by
  rw [after_1]; exact win0_1.cut_fill _ _ _

/-- Whatever the fetches left past the array's end, the result's rows inside the array are the named ones. -/
theorem cut_9 (c : Dev nD) (t : Fin cfg0.N) (d0 : S12288x64.Idx → Elt Ideal .f32) (d1 : S12288x96.Idx → Elt Ideal .f32) :
    (cfg0.win 9).cut (cfg0.grid.coords t) ((dats m 0 c).after 9 t)
      = (cfg0.win 9).cut (cfg0.grid.coords t) (blend (F := Ideal) (win0_0.fill (grid0.coords t) d0 (iblk m c 0 t)) (win0_1.fill (grid0.coords t) d1 (iblk m c 1 t))
          (iblk m c 2 t) (iblk m c 3 t) (iblk m c 4 t) (iblk m c 5 t) (iblk m c 6 t) (iblk m c 7 t) (iblk m c 8 t)) := by
  rw [after_9]
  exact cut_blend_congr t _ _ _ _ _ _ _ _ _ _ _
    ((win0_0.cut_fill _ _ _).trans (win0_0.cut_fill _ _ _).symm) ((win0_1.cut_fill _ _ _).trans (win0_1.cut_fill _ _ _).symm)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare ((cfg0.win 9).fill (cfg0.grid.coords t) d ((cfg0.win 9).cut (cfg0.grid.coords t) ((dats m 0 c).after 9 t)))))

/-- The body at any point: its triple on the current staging buffers; what it leaves in the result buffer is, on the
    rows the write-back moves, the named block (`cut_9`), and past them whatever it is. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    cut_0, cut_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [cut_9 m c t d0 d1]
  iapply (sound_kernel (F := Ideal) c Set.univ (grid0.coords t) _ _ _ _ _ _ _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists (blend (F := Ideal) (win0_0.fill (grid0.coords t) d0 (iblk m c 0 t)) (win0_1.fill (grid0.coords t) d1 (iblk m c 1 t))
    (iblk m c 2 t) (iblk m c 3 t) (iblk m c 4 t) (iblk m c 5 t) (iblk m c 6 t) (iblk m c 7 t) (iblk m c 8 t))
  rw [(cfg0.win 9).fill_cut]
  iexact H9

/-- The body obligation at every point, each cut window stated on the part its transfers move. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, every array of the pipeline ending at what the proof data computes
    (the result: the named blocks written back in point order) and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Body

end
-- ==== Proof.GateOut.lean ====
/-
  The result array of the gate-fusion computation, as one function of the eight argument arrays.

  Row `r` of the result depends on row `r` of the detail array `A0` (500000 x 64) and of the context array `A1`
  (500000 x 96) and on the six small operands: the projections `A2` (64 x 128) and `A3` (96 x 128), the first gate matrix
  `A4` (160 x 64: its first 64 rows meet the detail row, its last 96 the context row), the layer-norm scale `A5` and
  shift `A6` (64 each) and the second gate matrix `A7` (64 x 1). `outAt` is the kernel's arrangement of entry `(r, q)`,
  `refAt` the reference's; they agree when the two streamed arrays and the two projections hold real numbers.
-/
import proofs.«180442_j23115513987443_2_alg».proof.Proof.GateSpec

noncomputable section

namespace Cert.GateRows

open Idealize.ShloMosaic Idealize.ShloMosaic.ValueIdx

/-- Entry `(r, q)` of the result, the kernel's arrangement. -/
def outAt (A0 : (⟨2, ![500000, 64]⟩ : Shape).Idx → EReal) (A1 : (⟨2, ![500000, 96]⟩ : Shape).Idx → EReal)
    (A2 : (⟨2, ![64, 128]⟩ : Shape).Idx → EReal) (A3 : (⟨2, ![96, 128]⟩ : Shape).Idx → EReal)
    (A4 : (⟨2, ![160, 64]⟩ : Shape).Idx → EReal) (A5 A6 : (⟨1, ![64]⟩ : Shape).Idx → EReal)
    (A7 : (⟨2, ![64, 1]⟩ : Shape).Idx → EReal) (r : Fin 500000) (q : Fin 128) : EReal :=
  rowOut (fun j => A0 (ix2 r j)) (fun j => A1 (ix2 r j)) (fun j q => A2 (ix2 j q)) (fun j q => A3 (ix2 j q))
    (fun j k => A4 (ix2 (⟨j.val, by omega⟩ : Fin 160) k)) (fun j k => A4 (ix2 (⟨64 + j.val, by omega⟩ : Fin 160) k))
    (fun k => A5 (ix1 k)) (fun k => A6 (ix1 k)) (fun k => A7 (ix2 k (0 : Fin 1))) q

/-- Entry `(r, q)` of the result, the reference's arrangement. -/
def refAt (A0 : (⟨2, ![500000, 64]⟩ : Shape).Idx → EReal) (A1 : (⟨2, ![500000, 96]⟩ : Shape).Idx → EReal)
    (A2 : (⟨2, ![64, 128]⟩ : Shape).Idx → EReal) (A3 : (⟨2, ![96, 128]⟩ : Shape).Idx → EReal)
    (A4 : (⟨2, ![160, 64]⟩ : Shape).Idx → EReal) (A5 A6 : (⟨1, ![64]⟩ : Shape).Idx → EReal)
    (A7 : (⟨2, ![64, 1]⟩ : Shape).Idx → EReal) (r : Fin 500000) (q : Fin 128) : EReal :=
  rowRef (fun j => A0 (ix2 r j)) (fun j => A1 (ix2 r j)) (fun j q => A2 (ix2 j q)) (fun j q => A3 (ix2 j q))
    (fun j k => A4 (ix2 j k)) (fun k => A5 (ix1 k)) (fun k => A6 (ix1 k)) (fun k => A7 (ix2 k (0 : Fin 1))) q

/-- The whole result array, the kernel's arrangement. -/
def outArr (A0 : (⟨2, ![500000, 64]⟩ : Shape).Idx → EReal) (A1 : (⟨2, ![500000, 96]⟩ : Shape).Idx → EReal)
    (A2 : (⟨2, ![64, 128]⟩ : Shape).Idx → EReal) (A3 : (⟨2, ![96, 128]⟩ : Shape).Idx → EReal)
    (A4 : (⟨2, ![160, 64]⟩ : Shape).Idx → EReal) (A5 A6 : (⟨1, ![64]⟩ : Shape).Idx → EReal)
    (A7 : (⟨2, ![64, 1]⟩ : Shape).Idx → EReal) : (⟨2, ![500000, 128]⟩ : Shape).Idx → EReal :=
  fun i => outAt A0 A1 A2 A3 A4 A5 A6 A7 (i 0) (i 1)

/-- The two arrangements agree at every entry when the streamed arrays and the projections hold real numbers. -/
theorem refAt_eq_outAt (A0 : (⟨2, ![500000, 64]⟩ : Shape).Idx → EReal) (A1 : (⟨2, ![500000, 96]⟩ : Shape).Idx → EReal)
    (A2 : (⟨2, ![64, 128]⟩ : Shape).Idx → EReal) (A3 : (⟨2, ![96, 128]⟩ : Shape).Idx → EReal)
    (A4 : (⟨2, ![160, 64]⟩ : Shape).Idx → EReal) (A5 A6 : (⟨1, ![64]⟩ : Shape).Idx → EReal)
    (A7 : (⟨2, ![64, 1]⟩ : Shape).Idx → EReal) (r : Fin 500000) (q : Fin 128)
    (h0 : ∀ i, ∃ x : ℝ, A0 i = (x : EReal)) (h1 : ∀ i, ∃ x : ℝ, A1 i = (x : EReal))
    (h2 : ∀ i, ∃ x : ℝ, A2 i = (x : EReal)) (h3 : ∀ i, ∃ x : ℝ, A3 i = (x : EReal)) :
    refAt A0 A1 A2 A3 A4 A5 A6 A7 r q = outAt A0 A1 A2 A3 A4 A5 A6 A7 r q :=
  rowRef_eq_rowOut _ _ _ _ _ _ _ _ q (fun j => h0 _) (fun j => h1 _) (fun j q => h2 _) (fun j q => h3 _)

end Cert.GateRows

end
-- ==== Proof.ValueKernelIdeal.lean ====
/-
  The idealized kernel's result array, in closed form.

  Point `t` writes back rows `12288 t ‥` of the result: what the body left in the result buffer on the rows inside the
  array. Row `p` of that block is the one-row function of row `p` of the two streamed blocks, which are rows
  `12288 t + p` of the detail and context arrays; the resident operands are the two projections as launched, the two
  halves of the first gate matrix (rows 0‥63 and 64‥159, cut out by the host before the call), and the layer-norm scale,
  shift and second gate matrix re-laid by the host as 1 x 64 rows. So every written-back entry is `outAt` of the
  argument arrays at its own array index, the 41 blocks cover the 500000 rows (the last one with its 8480 rows), and
  the result array ends holding `outArr` of the argument arrays.
-/
import proofs.«180442_j23115513987443_2_alg».proof.Proof.FrameKernelIdeal
import proofs.«180442_j23115513987443_2_alg».proof.Proof.GateOut
import Idealize.ShloMosaic.Lib.StableHlo.Run

set_option maxRecDepth 16384

noncomputable section

namespace Cert.KernelIdeal.Body

open Cert.KernelIdeal Cert.KernelIdeal.Gen Cert.KernelIdeal.Rows Cert.GateRows
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The index maps, decided over the grid -/

/-- The three streamed windows' blocks at point `t` start at row `12288 t`, column 0; the result's block keeps all 128
    columns and the rows up to the array's end. -/
theorem streamed_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ win0_9.xsize (grid0.coords t) 1 = 128
    ∧ t.val * 12288 + win0_9.xsize (grid0.coords t) 0 ≤ 500000
    ∧ ((t.val + 1) * 12288 ≤ 500000 → win0_9.xsize (grid0.coords t) 0 = 12288)
    ∧ (500000 < (t.val + 1) * 12288 → t.val * 12288 + win0_9.xsize (grid0.coords t) 0 = 500000) :=
  (by decide +kernel : ∀ t : Fin grid0.N, _)

/-- The seven resident windows' one block is at the origin at every point. -/
theorem resident_idx : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The resident operands' buffers hold their whole arrays -/

theorem resident_2 (c : Dev nD) (t : Fin cfg0.N) (j : Fin 64) (k : Fin 128) :
    iblk m c 2 t (ix2 j k) = V m c main_arg2 (ix2 j k) := by
  have hi := resident_idx t
  show V m c main_arg2 (((cfg0.win 2).blk t).view.emb (ix2 j k)) = V m c main_arg2 (ix2 j k)
  refine congrArg (V m c main_arg2) ?_
  funext a; apply Fin.ext
  match a with
  | ⟨0, _⟩ => show win0_2.index t (0 : Fin 2) * 64 + 1 * j.val = j.val; omega
  | ⟨1, _⟩ => show win0_2.index t (1 : Fin 2) * 128 + 1 * k.val = k.val; omega

theorem resident_3 (c : Dev nD) (t : Fin cfg0.N) (j : Fin 96) (k : Fin 128) :
    iblk m c 3 t (ix2 j k) = V m c main_arg3 (ix2 j k) := by
  have hi := resident_idx t
  show V m c main_arg3 (((cfg0.win 3).blk t).view.emb (ix2 j k)) = V m c main_arg3 (ix2 j k)
  refine congrArg (V m c main_arg3) ?_
  funext a; apply Fin.ext
  match a with
  | ⟨0, _⟩ => show win0_3.index t (0 : Fin 2) * 96 + 1 * j.val = j.val; omega
  | ⟨1, _⟩ => show win0_3.index t (1 : Fin 2) * 128 + 1 * k.val = k.val; omega

theorem resident_4 (c : Dev nD) (t : Fin cfg0.N) (j : Fin 64) (k : Fin 64) :
    iblk m c 4 t (ix2 j k) = V m c main_v0 (ix2 j k) := by
  have hi := resident_idx t
  show V m c main_v0 (((cfg0.win 4).blk t).view.emb (ix2 j k)) = V m c main_v0 (ix2 j k)
  refine congrArg (V m c main_v0) ?_
  funext a; apply Fin.ext
  match a with
  | ⟨0, _⟩ => show win0_4.index t (0 : Fin 2) * 64 + 1 * j.val = j.val; omega
  | ⟨1, _⟩ => show win0_4.index t (1 : Fin 2) * 64 + 1 * k.val = k.val; omega

theorem resident_5 (c : Dev nD) (t : Fin cfg0.N) (j : Fin 96) (k : Fin 64) :
    iblk m c 5 t (ix2 j k) = V m c main_v1 (ix2 j k) := by
  have hi := resident_idx t
  show V m c main_v1 (((cfg0.win 5).blk t).view.emb (ix2 j k)) = V m c main_v1 (ix2 j k)
  refine congrArg (V m c main_v1) ?_
  funext a; apply Fin.ext
  match a with
  | ⟨0, _⟩ => show win0_5.index t (0 : Fin 2) * 96 + 1 * j.val = j.val; omega
  | ⟨1, _⟩ => show win0_5.index t (1 : Fin 2) * 64 + 1 * k.val = k.val; omega

theorem resident_6 (c : Dev nD) (t : Fin cfg0.N) (j : Fin 1) (k : Fin 64) :
    iblk m c 6 t (ix2 j k) = V m c main_v2 (ix2 j k) := by
  have hi := resident_idx t
  show V m c main_v2 (((cfg0.win 6).blk t).view.emb (ix2 j k)) = V m c main_v2 (ix2 j k)
  refine congrArg (V m c main_v2) ?_
  funext a; apply Fin.ext
  match a with
  | ⟨0, _⟩ => show win0_6.index t (0 : Fin 2) * 1 + 1 * j.val = j.val; omega
  | ⟨1, _⟩ => show win0_6.index t (1 : Fin 2) * 64 + 1 * k.val = k.val; omega

theorem resident_7 (c : Dev nD) (t : Fin cfg0.N) (j : Fin 1) (k : Fin 64) :
    iblk m c 7 t (ix2 j k) = V m c main_v3 (ix2 j k) := by
  have hi := resident_idx t
  show V m c main_v3 (((cfg0.win 7).blk t).view.emb (ix2 j k)) = V m c main_v3 (ix2 j k)
  refine congrArg (V m c main_v3) ?_
  funext a; apply Fin.ext
  match a with
  | ⟨0, _⟩ => show win0_7.index t (0 : Fin 2) * 1 + 1 * j.val = j.val; omega
  | ⟨1, _⟩ => show win0_7.index t (1 : Fin 2) * 64 + 1 * k.val = k.val; omega

theorem resident_8 (c : Dev nD) (t : Fin cfg0.N) (j : Fin 1) (k : Fin 64) :
    iblk m c 8 t (ix2 j k) = V m c main_v4 (ix2 j k) := by
  have hi := resident_idx t
  show V m c main_v4 (((cfg0.win 8).blk t).view.emb (ix2 j k)) = V m c main_v4 (ix2 j k)
  refine congrArg (V m c main_v4) ?_
  funext a; apply Fin.ext
  match a with
  | ⟨0, _⟩ => show win0_8.index t (0 : Fin 2) * 1 + 1 * j.val = j.val; omega
  | ⟨1, _⟩ => show win0_8.index t (1 : Fin 2) * 64 + 1 * k.val = k.val; omega

/-! ## What the host operations before the call leave in the five buffers they write -/

/-- The first gate matrix's rows 0‥63. -/
theorem host_v0 (c : Dev nD) (j : Fin 64) (k : Fin 64) :
    V m c main_v0 (ix2 j k) = m ((c : Thread nD τ).loc main_arg4) (ix2 (⟨j.val, by omega⟩ : Fin 160) k) := by
  have e : (V m c main_v0 : S64x64.Idx → EReal)
      = extractStridedSlice S64x64 ![0, 0] (m ((c : Thread nD τ).loc main_arg4)) slices_S160x64_S64x64_0_0 := by
    dsimp only [Gen.V, Gen.hostOps0]; after_results <;> rfl
  rw [e]
  exact slice2_axis0_apply 0 _ _ j k _ (by show j.val = 0 + j.val; omega)

/-- The first gate matrix's rows 64‥159. -/
theorem host_v1 (c : Dev nD) (j : Fin 96) (k : Fin 64) :
    V m c main_v1 (ix2 j k) = m ((c : Thread nD τ).loc main_arg4) (ix2 (⟨64 + j.val, by omega⟩ : Fin 160) k) := by
  have e : (V m c main_v1 : S96x64.Idx → EReal)
      = extractStridedSlice S96x64 ![64, 0] (m ((c : Thread nD τ).loc main_arg4)) slices_S160x64_S96x64_64_0 := by
    dsimp only [Gen.V, Gen.hostOps0]; after_results <;> rfl
  rw [e]
  exact slice2_axis0_apply 64 _ _ j k _ rfl

/-- The layer-norm scale as a 1 x 64 row. -/
theorem host_v2 (c : Dev nD) (u : Fin 1) (k : Fin 64) :
    V m c main_v2 (ix2 u k) = m ((c : Thread nD τ).loc main_arg5) (ix1 k) := by
  have e : (V m c main_v2 : S1x64.Idx → EReal) = shapeCast S1x64 (m ((c : Thread nD τ).loc main_arg5)) shapeCasts_S64_S1x64 := by
    dsimp only [Gen.V, Gen.hostOps0]; after_results <;> rfl
  rw [e]
  exact shapeCast_a_1a_apply _ _ u k

/-- The layer-norm shift as a 1 x 64 row. -/
theorem host_v3 (c : Dev nD) (u : Fin 1) (k : Fin 64) :
    V m c main_v3 (ix2 u k) = m ((c : Thread nD τ).loc main_arg6) (ix1 k) := by
  have e : (V m c main_v3 : S1x64.Idx → EReal) = shapeCast S1x64 (m ((c : Thread nD τ).loc main_arg6)) shapeCasts_S64_S1x64 := by
    dsimp only [Gen.V, Gen.hostOps0]; after_results <;> rfl
  rw [e]
  exact shapeCast_a_1a_apply _ _ u k

/-- The second gate matrix's one column as a 1 x 64 row. -/
theorem host_v4 (c : Dev nD) (u : Fin 1) (k : Fin 64) :
    V m c main_v4 (ix2 u k) = m ((c : Thread nD τ).loc main_arg7) (ix2 k (0 : Fin 1)) := by
  have e : (V m c main_v4 : S1x64.Idx → EReal) = shapeCast S1x64 (m ((c : Thread nD τ).loc main_arg7)) shapeCasts_S64x1_S1x64 := by
    dsimp only [Gen.V, Gen.hostOps0]; after_results <;> rfl
  rw [e]
  refine shapeCast_apply (s := S64x1) (t := S1x64) _ _ (ix2 u k) (ix2 k (0 : Fin 1)) ?_
  have hu : u.val = 0 := by omega
  show (S64x1.rowMajor (ix2 k (0 : Fin 1))).val = (S1x64.rowMajor (ix2 u k)).val
  rw [Shape.rowMajor_val_two, Shape.rowMajor_val_two]
  show k.val * 1 + 0 = u.val * 64 + k.val
  omega

/-! ## The streamed blocks' rows are the arrays' rows -/

/-- At an index the transfer moves, a filled buffer holds the fetched block. -/
theorem moved_fill {G : Pipeline.Grid} (w : Window sig G) {α : Type} (i : G.Coords) (d : w.block.Idx → α) (g : (w.xblock i).Idx → α)
    (y : w.block.Idx) (hy : w.moved i y = true) :
    w.fill i d g y = g (fun a => ⟨(y a).val, (w.moved_iff i y).mp hy a⟩) := by
  unfold Window.fill; rw [dif_pos hy]

/-- Row `p` of the detail buffer at point `t`, when inside the array, is row `12288 t + p` of the detail array. -/
theorem streamed_0 (c : Dev nD) (t : Fin cfg0.N) (d : S12288x64.Idx → Elt Ideal .f32) (p : Fin 12288) (k : Fin 64) (r : Fin 500000)
    (hp : p.val < win0_9.xsize (grid0.coords t) 0) (hr : r.val = t.val * 12288 + p.val) :
    win0_0.fill (grid0.coords t) d (iblk m c 0 t) (ix2 p k) = V m c main_arg0 (ix2 r k) := by
  obtain ⟨c00, c01, c10, c11⟩ := cuts_agree t
  obtain ⟨i00, i01, i10, i11, i90, i91, x91, x90, -, -⟩ := streamed_idx t
  have hy : win0_0.moved (grid0.coords t) (ix2 p k) = true := (win0_0.moved_iff _ _).mpr fun a => by
    match a with
    | ⟨0, _⟩ => show p.val < win0_0.xsize (grid0.coords t) 0; rw [c00]; exact hp
    | ⟨1, _⟩ => show k.val < win0_0.xsize (grid0.coords t) 1; rw [c01]; exact k.isLt
  rw [moved_fill win0_0 _ _ _ _ hy]
  show V m c main_arg0 (((cfg0.win 0).blk t).view.emb _) = V m c main_arg0 (ix2 r k)
  refine congrArg (V m c main_arg0) ?_
  funext a; apply Fin.ext
  match a with
  | ⟨0, _⟩ => show win0_0.index t (0 : Fin 2) * 12288 + 1 * p.val = r.val; rw [i00, hr]; omega
  | ⟨1, _⟩ => show win0_0.index t (1 : Fin 2) * 64 + 1 * k.val = k.val; rw [i01]; omega

/-- Row `p` of the context buffer at point `t`, when inside the array, is row `12288 t + p` of the context array. -/
theorem streamed_1 (c : Dev nD) (t : Fin cfg0.N) (d : S12288x96.Idx → Elt Ideal .f32) (p : Fin 12288) (k : Fin 96) (r : Fin 500000)
    (hp : p.val < win0_9.xsize (grid0.coords t) 0) (hr : r.val = t.val * 12288 + p.val) :
    win0_1.fill (grid0.coords t) d (iblk m c 1 t) (ix2 p k) = V m c main_arg1 (ix2 r k) := by
  obtain ⟨c00, c01, c10, c11⟩ := cuts_agree t
  obtain ⟨i00, i01, i10, i11, i90, i91, x91, x90, -, -⟩ := streamed_idx t
  have hy : win0_1.moved (grid0.coords t) (ix2 p k) = true := (win0_1.moved_iff _ _).mpr fun a => by
    match a with
    | ⟨0, _⟩ => show p.val < win0_1.xsize (grid0.coords t) 0; rw [c10]; exact hp
    | ⟨1, _⟩ => show k.val < win0_1.xsize (grid0.coords t) 1; rw [c11]; exact k.isLt
  rw [moved_fill win0_1 _ _ _ _ hy]
  show V m c main_arg1 (((cfg0.win 1).blk t).view.emb _) = V m c main_arg1 (ix2 r k)
  refine congrArg (V m c main_arg1) ?_
  funext a; apply Fin.ext
  match a with
  | ⟨0, _⟩ => show win0_1.index t (0 : Fin 2) * 12288 + 1 * p.val = r.val; rw [i10, hr]; omega
  | ⟨1, _⟩ => show win0_1.index t (1 : Fin 2) * 96 + 1 * k.val = k.val; rw [i11]; omega

/-! ## What each point writes back, and the array they fill -/

/-- The result array the kernel computes: `outArr` of the eight arguments as launched. -/
def kernelOut (c : Dev nD) : Buf (Elt Ideal) ((c.tc : Thread nD τ).loc main_v5) :=
  outArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- WHAT POINT `t` WRITES BACK is block `t` of `kernelOut`: each row of the result buffer inside the array is the one-row
    function of the same rows of the two streamed arrays and of the resident operands as the host prepared them. -/
theorem flushed_eq (c : Dev nD) (t : Fin cfg0.N) :
    (dats m 0 c).flushed 9 t = ((cfg0.win 9).blk t).view.read (Elt Ideal) (kernelOut m c) := by
  show (cfg0.win 9).cut (grid0.coords t) ((dats m 0 c).after 9 t) = _
  rw [after_9]
  obtain ⟨i00, i01, i10, i11, i90, i91, x91, x90, -, -⟩ := streamed_idx t
  funext j
  obtain ⟨p, q, hpq⟩ : ∃ (p : Fin 12288) (q : Fin 128), win0_9.xinj (grid0.coords t) j = ix2 p q := ⟨_, _, eq_ix2 _⟩
  have hp0 : p.val = (j 0).val := (congrArg (fun y : S12288x128.Idx => (y 0).val) hpq).symm
  have hq0 : q.val = (j 1).val := (congrArg (fun y : S12288x128.Idx => (y 1).val) hpq).symm
  have hp : p.val < win0_9.xsize (grid0.coords t) 0 := by rw [hp0]; exact (j 0).isLt
  have hr : t.val * 12288 + p.val < 500000 := by omega
  show blend (F := Ideal) _ _ _ _ _ _ _ _ _ (win0_9.xinj (grid0.coords t) j) = kernelOut m c (((cfg0.win 9).blk t).view.emb j)
  have hemb : ((cfg0.win 9).blk t).view.emb j = ix2 (⟨t.val * 12288 + p.val, hr⟩ : Fin 500000) q := by
    funext a; apply Fin.ext
    match a with
    | ⟨0, _⟩ => show win0_9.index t (0 : Fin 2) * 12288 + 1 * (j 0).val = t.val * 12288 + p.val; rw [i90, hp0]; omega
    | ⟨1, _⟩ => show win0_9.index t (1 : Fin 2) * 128 + 1 * (j 1).val = q.val; rw [i91, hq0]; omega
  rw [hpq, hemb, blend_apply]
  have s0 : ∀ k : Fin 64, win0_0.fill (grid0.coords t) (fun _ => Scalar.ofBits (F := Ideal) .f32 0#32) (iblk m c 0 t) (ix2 p k)
      = m ((c : Thread nD τ).loc main_arg0) (ix2 (⟨t.val * 12288 + p.val, hr⟩ : Fin 500000) k) := fun k =>
    (streamed_0 m c t _ p k ⟨_, hr⟩ hp rfl).trans (congrFun (V_main_arg0 m c) _)
  have s1 : ∀ k : Fin 96, win0_1.fill (grid0.coords t) (fun _ => Scalar.ofBits (F := Ideal) .f32 0#32) (iblk m c 1 t) (ix2 p k)
      = m ((c : Thread nD τ).loc main_arg1) (ix2 (⟨t.val * 12288 + p.val, hr⟩ : Fin 500000) k) := fun k =>
    (streamed_1 m c t _ p k ⟨_, hr⟩ hp rfl).trans (congrFun (V_main_arg1 m c) _)
  have s2 : ∀ (j : Fin 64) (k : Fin 128), iblk m c 2 t (ix2 j k) = m ((c : Thread nD τ).loc main_arg2) (ix2 j k) := fun j k =>
    (resident_2 m c t j k).trans (congrFun (V_main_arg2 m c) _)
  have s3 : ∀ (j : Fin 96) (k : Fin 128), iblk m c 3 t (ix2 j k) = m ((c : Thread nD τ).loc main_arg3) (ix2 j k) := fun j k =>
    (resident_3 m c t j k).trans (congrFun (V_main_arg3 m c) _)
  have s4 : ∀ (j : Fin 64) (k : Fin 64), iblk m c 4 t (ix2 j k) = m ((c : Thread nD τ).loc main_arg4) (ix2 (⟨j.val, by omega⟩ : Fin 160) k) := fun j k =>
    (resident_4 m c t j k).trans (host_v0 m c j k)
  have s5 : ∀ (j : Fin 96) (k : Fin 64), iblk m c 5 t (ix2 j k) = m ((c : Thread nD τ).loc main_arg4) (ix2 (⟨64 + j.val, by omega⟩ : Fin 160) k) := fun j k =>
    (resident_5 m c t j k).trans (host_v1 m c j k)
  have s6 : ∀ k : Fin 64, iblk m c 6 t (ix2 (0 : Fin 1) k) = m ((c : Thread nD τ).loc main_arg5) (ix1 k) := fun k =>
    (resident_6 m c t 0 k).trans (host_v2 m c 0 k)
  have s7 : ∀ k : Fin 64, iblk m c 7 t (ix2 (0 : Fin 1) k) = m ((c : Thread nD τ).loc main_arg6) (ix1 k) := fun k =>
    (resident_7 m c t 0 k).trans (host_v3 m c 0 k)
  have s8 : ∀ k : Fin 64, iblk m c 8 t (ix2 (0 : Fin 1) k) = m ((c : Thread nD τ).loc main_arg7) (ix2 k (0 : Fin 1)) := fun k =>
    (resident_8 m c t 0 k).trans (host_v4 m c 0 k)
  simp only [s0, s1, s2, s3, s4, s5, s6, s7, s8]
  rfl

/-- An index of the result array is in point `t`'s block iff each coordinate is in the block's range inside the array. -/
theorem mem_blk (t : Fin cfg0.N) (i : S500000x128.Idx) :
    i ∈ ((cfg0.win 9).blk t).view.set ↔ ∀ a : Fin 2, win0_9.index t a * S12288x128.size a ≤ (i a).val
      ∧ (i a).val < win0_9.index t a * S12288x128.size a + win0_9.xsize (grid0.coords t) a := by
  show i ∈ ((View.whole main_v5).slice (win0_9.rect t)).set ↔ _
  rw [View.set_slice_whole, Rect.mem_set_unit]
  exact Iff.rfl

/-- THE BLOCKS COVER THE ARRAY: row `r` is in the block of point `r / 12288` (the last block has the array's last 8480 rows). -/
theorem cover (i : S500000x128.Idx) : ∃ t : Fin cfg0.N, (cfg0.win 9).flush t = true ∧ i ∈ ((cfg0.win 9).blk t).view.set := by
  have hi0 : (i 0).val < 500000 := (i 0).isLt
  have hi1 : (i 1).val < 128 := (i 1).isLt
  have hN : grid0.N = 41 := N_0
  let t : Fin cfg0.N := ⟨(i 0).val / 12288, by show (i 0).val / 12288 < grid0.N; omega⟩
  have ht : t.val = (i 0).val / 12288 := rfl
  obtain ⟨i00, i01, i10, i11, i90, i91, x91, x90, xfull, xlast⟩ := streamed_idx t
  refine ⟨t, flush0_9 t, (mem_blk t i).mpr fun a => ?_⟩
  match a with
  | ⟨0, _⟩ =>
    show win0_9.index t (0 : Fin 2) * 12288 ≤ (i 0).val ∧ (i 0).val < win0_9.index t (0 : Fin 2) * 12288 + win0_9.xsize (grid0.coords t) 0
    rw [i90]
    by_cases hfull : (t.val + 1) * 12288 ≤ 500000
    · rw [xfull hfull]; omega
    · have := xlast (by omega); omega
  | ⟨1, _⟩ =>
    show win0_9.index t (1 : Fin 2) * 128 ≤ (i 1).val ∧ (i 1).val < win0_9.index t (1 : Fin 2) * 128 + win0_9.xsize (grid0.coords t) 1
    rw [i91, x91]; omega

/-- THE RESULT ARRAY after the run. -/
theorem final (c : Dev nD) : (dats m 0 c).arrAt 9 cfg0.N = kernelOut m c :=
  (dats m 0 c).arrAt_eq_of_cover 9 (kernelOut m c) (fun t _ => flushed_eq m c t) cover

/-! ## The run, read -/

/-- Every weakly fair execution of the idealized kernel's @main terminates with the result array at `kernelOut` and the
    eight arguments unchanged. -/
theorem run_value : θ_run defs (onTc (τ := τ) (main (F := Ideal))) ⟨m, fun _ => 0, ρ⟩ (fun r => ∀ c : Dev nD,
      r.2.mem ((c.tc : Thread nD τ).loc main_v5) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 9).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Body

end
-- ==== Proof.RefValue.lean ====
/-
  The reference's result, read entry by entry.

  The reference joins each detail row with its context row (160 entries), multiplies by the whole first gate matrix,
  normalizes and rectifies the 64 hidden units, takes the logistic (as one over one plus an exponential) of their
  product with the second gate matrix's column, and returns (1 − gate) · context projection + gate · detail projection.
  Read at entry `(r, q)` every host operation is its textbook formula of the operands at the matching entries — a
  broadcast reads its operand at the kept coordinates, a sum over the hidden axis is a 64-term sum plus its zero start
  value, a product of matrices a sum over the contraction index — and the whole is `refAt` of the argument arrays.
-/
import proofs.«180442_j23115513987443_2_alg».proof.Proof.Gen.ReferenceIdeal.Read
import proofs.«180442_j23115513987443_2_alg».proof.Proof.GateOut
import Idealize.ShloMosaic.Lib.Pipeline.Value

set_option maxRecDepth 16384

noncomputable section

namespace Cert.ReferenceIdeal.RefValue

open Cert.ReferenceIdeal Cert.ReferenceIdeal.Gen Cert.ReferenceIdeal.Read Cert.GateRows
open Idealize.ShloMosaic Idealize.ShloMosaic.ValueIdx

/-! ## The operations' index maps at an entry `(r, k)` -/

theorem lidx_main_v1_eq (r : Fin 500000) (k : Fin 64) (j : Fin 160) : lidx_main_v1 (ix2 r k) j = ix2 r j := by
  funext a; apply Fin.ext
  match a with
  | ⟨0, _⟩ => rfl
  | ⟨1, _⟩ => rfl
theorem ridx_main_v1_eq (r : Fin 500000) (k : Fin 64) (j : Fin 160) : ridx_main_v1 (ix2 r k) j = ix2 j k := by
  funext a; apply Fin.ext
  match a with
  | ⟨0, _⟩ => rfl
  | ⟨1, _⟩ => rfl
theorem idx_main_v2_eq (r : Fin 500000) (k : Fin 64) : idx_main_v2 (ix1 r) k = ix2 r k := by
  funext a; apply Fin.ext
  match a with
  | ⟨0, _⟩ => rfl
  | ⟨1, _⟩ => rfl
theorem idx_main_v9_eq (r : Fin 500000) (k : Fin 64) : idx_main_v9 (ix1 r) k = ix2 r k := by
  funext a; apply Fin.ext
  match a with
  | ⟨0, _⟩ => rfl
  | ⟨1, _⟩ => rfl
theorem idx_main_v3_eq (r : Fin 500000) (u : Fin 1) : idx_main_v3 (ix2 r u) = ix1 r := by
  funext a; apply Fin.ext
  match a with
  | ⟨0, _⟩ => rfl
theorem idx_main_v10_eq (r : Fin 500000) (u : Fin 1) : idx_main_v10 (ix2 r u) = ix1 r := by
  funext a; apply Fin.ext
  match a with
  | ⟨0, _⟩ => rfl
theorem idx_main_v6_eq (r : Fin 500000) (k : Fin 64) : idx_main_v6 (ix2 r k) = ix2 r (0 : Fin 1) := by
  funext a; apply Fin.ext
  match a with
  | ⟨0, _⟩ => rfl
  | ⟨1, _⟩ => rfl
theorem idx_main_v13_eq (r : Fin 500000) (k : Fin 64) : idx_main_v13 (ix2 r k) = ix2 r (0 : Fin 1) := by
  funext a; apply Fin.ext
  match a with
  | ⟨0, _⟩ => rfl
  | ⟨1, _⟩ => rfl
theorem idx_main_v18_eq (r : Fin 500000) (k : Fin 64) : idx_main_v18 (ix2 r k) = ix2 r (0 : Fin 1) := by
  funext a; apply Fin.ext
  match a with
  | ⟨0, _⟩ => rfl
  | ⟨1, _⟩ => rfl
theorem idx_main_v20_eq (u : Fin 1) (k : Fin 64) : idx_main_v20 (ix2 u k) = ix1 k := by
  funext a; apply Fin.ext
  match a with
  | ⟨0, _⟩ => rfl
theorem idx_main_v23_eq (u : Fin 1) (k : Fin 64) : idx_main_v23 (ix2 u k) = ix1 k := by
  funext a; apply Fin.ext
  match a with
  | ⟨0, _⟩ => rfl
theorem idx_main_v21_eq (r : Fin 500000) (k : Fin 64) : idx_main_v21 (ix2 r k) = ix2 (0 : Fin 1) k := by
  funext a; apply Fin.ext
  match a with
  | ⟨0, _⟩ => rfl
  | ⟨1, _⟩ => rfl
theorem idx_main_v24_eq (r : Fin 500000) (k : Fin 64) : idx_main_v24 (ix2 r k) = ix2 (0 : Fin 1) k := by
  funext a; apply Fin.ext
  match a with
  | ⟨0, _⟩ => rfl
  | ⟨1, _⟩ => rfl
theorem lidx_main_v27_eq (r : Fin 500000) (u : Fin 1) (k : Fin 64) : lidx_main_v27 (ix2 r u) k = ix2 r k := by
  funext a; apply Fin.ext
  match a with
  | ⟨0, _⟩ => rfl
  | ⟨1, _⟩ => rfl
theorem ridx_main_v27_eq (r : Fin 500000) (u : Fin 1) (k : Fin 64) : ridx_main_v27 (ix2 r u) k = ix2 k u := by
  funext a; apply Fin.ext
  match a with
  | ⟨0, _⟩ => rfl
  | ⟨1, _⟩ => rfl
theorem lidx_main_v34_eq (r : Fin 500000) (q : Fin 128) (k : Fin 64) : lidx_main_v34 (ix2 r q) k = ix2 r k := by
  funext a; apply Fin.ext
  match a with
  | ⟨0, _⟩ => rfl
  | ⟨1, _⟩ => rfl
theorem ridx_main_v34_eq (r : Fin 500000) (q : Fin 128) (k : Fin 64) : ridx_main_v34 (ix2 r q) k = ix2 k q := by
  funext a; apply Fin.ext
  match a with
  | ⟨0, _⟩ => rfl
  | ⟨1, _⟩ => rfl
theorem lidx_main_v35_eq (r : Fin 500000) (q : Fin 128) (k : Fin 96) : lidx_main_v35 (ix2 r q) k = ix2 r k := by
  funext a; apply Fin.ext
  match a with
  | ⟨0, _⟩ => rfl
  | ⟨1, _⟩ => rfl
theorem ridx_main_v35_eq (r : Fin 500000) (q : Fin 128) (k : Fin 96) : ridx_main_v35 (ix2 r q) k = ix2 k q := by
  funext a; apply Fin.ext
  match a with
  | ⟨0, _⟩ => rfl
  | ⟨1, _⟩ => rfl
theorem idx_main_v38_eq (r : Fin 500000) (q : Fin 128) : idx_main_v38 (ix2 r q) = ix2 r (0 : Fin 1) := by
  funext a; apply Fin.ext
  match a with
  | ⟨0, _⟩ => rfl
  | ⟨1, _⟩ => rfl
theorem idx_main_v40_eq (r : Fin 500000) (q : Fin 128) : idx_main_v40 (ix2 r q) = ix2 r (0 : Fin 1) := by
  funext a; apply Fin.ext
  match a with
  | ⟨0, _⟩ => rfl
  | ⟨1, _⟩ => rfl

/-! ## The joined row and the hidden units -/

/-- The joined array at `(r, j)`: the detail row's entry for `j < 64`, else the context row's entry `j − 64`. -/
theorem ref_cat (x0 : (⟨S500000x64, .f32⟩ : BufTy).Contents (Elt Ideal)) (x1 : (⟨S500000x96, .f32⟩ : BufTy).Contents (Elt Ideal)) (r : Fin 500000) (j : Fin 160) :
    val_main_v0 (F := Ideal) x0 x1 (ix2 r j) = cat (fun j => x0 (ix2 r j)) (fun j => x1 (ix2 r j)) j := by
  unfold val_main_v0 cat
  by_cases h : j.val < 64
  · rw [dif_pos h]
    exact concatenate_pair_apply_left (1 : Fin 2) x0 x1 concatenates_S500000x64_S500000x96_S500000x160_d1 (ix2 r j) rfl
      (ix2 r (⟨j.val, h⟩ : Fin 64)) (fun b => by
        match b with
        | ⟨0, _⟩ => rfl
        | ⟨1, _⟩ => rfl)
  · rw [dif_neg h]
    exact concatenate_pair_apply_right (1 : Fin 2) x0 x1 concatenates_S500000x64_S500000x96_S500000x160_d1 (ix2 r j) rfl rfl
      (ix2 r (⟨j.val - 64, by omega⟩ : Fin 96)) (fun b hb => by
        match b, hb with
        | ⟨0, _⟩, _ => rfl
        | ⟨1, _⟩, hb => exact absurd rfl hb) (by show j.val - 64 + 64 = j.val; omega)

/-- The hidden pre-activations at `(r, k)`: the joined row times column `k` of the first gate matrix. -/
theorem ref_hidden (x0 : (⟨S500000x64, .f32⟩ : BufTy).Contents (Elt Ideal)) (x1 : (⟨S500000x96, .f32⟩ : BufTy).Contents (Elt Ideal)) (x4 : (⟨S160x64, .f32⟩ : BufTy).Contents (Elt Ideal)) (r : Fin 500000) (k : Fin 64) :
    val_main_v1 (F := Ideal) x0 x1 x4 (ix2 r k)
      = hidCat (fun j => x0 (ix2 r j)) (fun j => x1 (ix2 r j)) (fun j k => x4 (ix2 j k)) k := by
  rw [val_main_v1_apply]
  unfold hidCat
  refine Finset.sum_congr rfl fun j _ => ?_
  rw [lidx_main_v1_eq, ridx_main_v1_eq, ref_cat]

/-! ## Normalization, the gate, the blend -/

/-- A sum's zero start value adds nothing. -/
theorem zero_word_add (x : EReal) : FloatOps.ofBits (F := Ideal) .f32 0x00000000#32 + x = x := by
  rw [Ideal.ofBits_def, Ideal.ofBits_zero_f32, zero_add]

/-- The rectified, normalized hidden units at `(r, k)`, over the hidden pre-activations of row `r`. -/
theorem ref_act (x0 : (⟨S500000x64, .f32⟩ : BufTy).Contents (Elt Ideal)) (x1 : (⟨S500000x96, .f32⟩ : BufTy).Contents (Elt Ideal)) (x4 : (⟨S160x64, .f32⟩ : BufTy).Contents (Elt Ideal)) (x5 x6 : (⟨S64, .f32⟩ : BufTy).Contents (Elt Ideal)) (r : Fin 500000) (k : Fin 64) :
    val_main_v26 (F := Ideal) x0 x1 x4 x5 x6 (ix2 r k)
      = act (fun k => val_main_v1 (F := Ideal) x0 x1 x4 (ix2 r k)) (fun k => x5 (ix1 k)) (fun k => x6 (ix1 k)) k := by
  simp only [val_main_v26_apply, val_main_call0_v0_apply, val_main_call0_cst_apply, val_main_v25_apply, val_main_v24_apply,
    val_main_v23_apply, val_main_v22_apply, val_main_v21_apply, val_main_v20_apply, val_main_v19_apply, val_main_v18_apply,
    val_main_v17_apply, val_main_v16_apply, val_main_v15_apply, val_main_cst_3_apply, val_main_v14_apply, val_main_v13_apply,
    val_main_v12_apply, val_main_v11_apply, val_main_cst_2_apply, val_main_v10_apply, val_main_v9_apply, val_main_cst_1_apply,
    val_main_v8_apply, val_main_v7_apply, val_main_v6_apply, val_main_v5_apply, val_main_v4_apply, val_main_cst_0_apply,
    val_main_v3_apply, val_main_v2_apply, val_main_cst_apply,
    idx_main_v24_eq, idx_main_v23_eq, idx_main_v21_eq, idx_main_v20_eq, idx_main_v18_eq, idx_main_v13_eq, idx_main_v10_eq,
    idx_main_v9_eq, idx_main_v6_eq, idx_main_v3_eq, idx_main_v2_eq, zero_word_add]
  rfl

/-- The gate of row `r`: one over one plus the exponential of the negated logit. -/
theorem ref_gate (x0 : (⟨S500000x64, .f32⟩ : BufTy).Contents (Elt Ideal)) (x1 : (⟨S500000x96, .f32⟩ : BufTy).Contents (Elt Ideal)) (x4 : (⟨S160x64, .f32⟩ : BufTy).Contents (Elt Ideal)) (x5 x6 : (⟨S64, .f32⟩ : BufTy).Contents (Elt Ideal)) (x7 : (⟨S64x1, .f32⟩ : BufTy).Contents (Elt Ideal)) (r : Fin 500000) (u : Fin 1) :
    val_main_v33 (F := Ideal) x0 x1 x4 x5 x6 x7 (ix2 r u)
      = gateRef (fun k => val_main_v26 (F := Ideal) x0 x1 x4 x5 x6 (ix2 r k)) (fun k => x7 (ix2 k u)) := by
  simp only [val_main_v33_apply, val_main_v32_apply, val_main_cst_5_apply, val_main_v31_apply, val_main_v30_apply,
    val_main_cst_4_apply, val_main_v29_apply, val_main_v28_apply, val_main_v27_apply, lidx_main_v27_eq, ridx_main_v27_eq]
  rfl

/-- The result at `(r, q)`: one minus the gate times the context projection, plus the gate times the detail projection. -/
theorem ref_out (x0 : (⟨S500000x64, .f32⟩ : BufTy).Contents (Elt Ideal)) (x1 : (⟨S500000x96, .f32⟩ : BufTy).Contents (Elt Ideal)) (x2 : (⟨S64x128, .f32⟩ : BufTy).Contents (Elt Ideal)) (x3 : (⟨S96x128, .f32⟩ : BufTy).Contents (Elt Ideal)) (x4 : (⟨S160x64, .f32⟩ : BufTy).Contents (Elt Ideal)) (x5 x6 : (⟨S64, .f32⟩ : BufTy).Contents (Elt Ideal)) (x7 : (⟨S64x1, .f32⟩ : BufTy).Contents (Elt Ideal)) (r : Fin 500000) (q : Fin 128) :
    val_main_v42 (F := Ideal) x0 x1 x2 x3 x4 x5 x6 x7 (ix2 r q)
      = (cOne - val_main_v33 (F := Ideal) x0 x1 x4 x5 x6 x7 (ix2 r (0 : Fin 1))) * (∑ j : Fin 96, x1 (ix2 r j) * x3 (ix2 j q))
        + val_main_v33 (F := Ideal) x0 x1 x4 x5 x6 x7 (ix2 r (0 : Fin 1)) * (∑ j : Fin 64, x0 (ix2 r j) * x2 (ix2 j q)) := by
  simp only [val_main_v42_apply, val_main_v41_apply, val_main_v40_apply, val_main_v39_apply, val_main_v38_apply, val_main_v37_apply,
    val_main_v36_apply, val_main_cst_6_apply, val_main_v35_apply, val_main_v34_apply, idx_main_v40_eq, idx_main_v38_eq,
    lidx_main_v34_eq, ridx_main_v34_eq, lidx_main_v35_eq, ridx_main_v35_eq]
  rfl

/-- THE REFERENCE'S RESULT, ENTRY BY ENTRY: the reference's arrangement of the one-row function, at row `r`. -/
theorem ref_at (x0 : (⟨S500000x64, .f32⟩ : BufTy).Contents (Elt Ideal)) (x1 : (⟨S500000x96, .f32⟩ : BufTy).Contents (Elt Ideal)) (x2 : (⟨S64x128, .f32⟩ : BufTy).Contents (Elt Ideal)) (x3 : (⟨S96x128, .f32⟩ : BufTy).Contents (Elt Ideal)) (x4 : (⟨S160x64, .f32⟩ : BufTy).Contents (Elt Ideal)) (x5 x6 : (⟨S64, .f32⟩ : BufTy).Contents (Elt Ideal)) (x7 : (⟨S64x1, .f32⟩ : BufTy).Contents (Elt Ideal)) (r : Fin 500000) (q : Fin 128) :
    val_main_v42 (F := Ideal) x0 x1 x2 x3 x4 x5 x6 x7 (ix2 r q) = refAt x0 x1 x2 x3 x4 x5 x6 x7 r q := by
  rw [ref_out, ref_gate]
  simp only [ref_act, ref_hidden]
  rfl

/-- The reference's result array is the kernel's arrangement `outArr` of the same arguments, when the two streamed
    arrays and the two projections hold real numbers. -/
theorem ref_eq_outArr (x0 : (⟨S500000x64, .f32⟩ : BufTy).Contents (Elt Ideal)) (x1 : (⟨S500000x96, .f32⟩ : BufTy).Contents (Elt Ideal)) (x2 : (⟨S64x128, .f32⟩ : BufTy).Contents (Elt Ideal)) (x3 : (⟨S96x128, .f32⟩ : BufTy).Contents (Elt Ideal)) (x4 : (⟨S160x64, .f32⟩ : BufTy).Contents (Elt Ideal)) (x5 x6 : (⟨S64, .f32⟩ : BufTy).Contents (Elt Ideal)) (x7 : (⟨S64x1, .f32⟩ : BufTy).Contents (Elt Ideal))
    (h0 : ∀ i, ∃ y : ℝ, x0 i = (y : EReal)) (h1 : ∀ i, ∃ y : ℝ, x1 i = (y : EReal))
    (h2 : ∀ i, ∃ y : ℝ, x2 i = (y : EReal)) (h3 : ∀ i, ∃ y : ℝ, x3 i = (y : EReal)) :
    val_main_v42 (F := Ideal) x0 x1 x2 x3 x4 x5 x6 x7 = outArr x0 x1 x2 x3 x4 x5 x6 x7 := by
  funext i
  obtain ⟨r, q, rfl⟩ : ∃ (r : Fin 500000) (q : Fin 128), i = ix2 r q := ⟨i 0, i 1, eq_ix2 i⟩
  rw [ref_at]
  exact refAt_eq_outAt x0 x1 x2 x3 x4 x5 x6 x7 r q h0 h1 h2 h3

end Cert.ReferenceIdeal.RefValue

end
-- ==== Proof.Finite.lean ====
/-
  What the precondition says: every entry of the two streamed arrays and of the two projections is a real number.

  The precondition is the conjunction, over the eight arguments, of "every entry's absolute value is below the word for
  +∞". At the extended reals that word is +∞ and the absolute value of x is max x (−x), which is +∞ at both infinities;
  so each entry is neither infinity: it is a real. (Only four of the eight conjuncts are used: the law that joins the
  two programs needs the two projections of each row to be real, and nothing of the gate's operands.)
-/
import proofs.«180442_j23115513987443_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Cert.Pre_finite_inputs

/-- The word for +∞ denotes +∞. -/
theorem inf_word : Ideal.ofBits .f32 0x7F800000#32 = ⊤ := by simp [Ideal.ofBits, Ideal.ieee]

/-- An extended real whose absolute value compares below +∞ is a real number. -/
theorem real_of_abs_lt (x : EReal)
    (h : FloatOps.cmpf (F := Ideal) (φ := .f32) .olt (FloatOps.hostAbsf (F := Ideal) (φ := .f32) x) (FloatOps.ofBits .f32 0x7F800000#32) = 1#1) :
    ∃ y : ℝ, x = (y : EReal) := by
  have h' : Ideal.cmp .olt (max x (-x)) ⊤ = 1#1 := by rw [← inf_word]; exact h
  unfold Ideal.cmp at h'
  dsimp only at h'
  have hlt : max x (-x) < ⊤ := by
    by_contra hn
    rw [decide_eq_false hn] at h'
    exact absurd h' (by decide)
  induction x using EReal.rec with
  | bot => simp at hlt
  | coe r => exact ⟨r, rfl⟩
  | top => simp at hlt

instance : Subsingleton S_.Idx := ⟨fun a b => funext fun d => d.elim0⟩

/-- THE PRECONDITION, DECODED for the four arrays whose entries enter the two projections. -/
theorem reals_of_pre [Facts] (A0 : FVec Ideal S500000x64 .f32) (A1 : FVec Ideal S500000x96 .f32) (A2 : FVec Ideal S64x128 .f32)
    (A3 : FVec Ideal S96x128 .f32) (A4 : FVec Ideal S160x64 .f32) (A5 A6 : FVec Ideal S64 .f32) (A7 : FVec Ideal S64x1 .f32)
    (h : fn (F := Ideal) A0 A1 A2 A3 A4 A5 A6 A7 = fun _ => 1#1) :
    (∀ i, ∃ y : ℝ, A0 i = (y : EReal)) ∧ (∀ i, ∃ y : ℝ, A1 i = (y : EReal))
      ∧ (∀ i, ∃ y : ℝ, A2 i = (y : EReal)) ∧ (∀ i, ∃ y : ℝ, A3 i = (y : EReal)) := by
  have h0 := congrFun h ValueIdx.ix0
  dsimp only [fn, fn_part1, fn_part2] at h0
  obtain ⟨h33, -⟩ := IntOp.andi_eq_one.1 h0
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => real_of_abs_lt (A0 i) (Host.reduce_andi_all _ _ _ _ _ h3 i),
    fun i => real_of_abs_lt (A1 i) (Host.reduce_andi_all _ _ _ _ _ h7 i),
    fun i => real_of_abs_lt (A2 i) (Host.reduce_andi_all _ _ _ _ _ h12 i),
    fun i => real_of_abs_lt (A3 i) (Host.reduce_andi_all _ _ _ _ _ h17 i)⟩

end Cert.FiniteInputs

end
-- ==== Proof.lean ====
/-
  The certificate of the gate-fusion kernel against its reference: the three frames, the (empty) idealization ledger,
  and the equality of the two idealized programs' results.

  The kernel streams the 500000 rows in 41 blocks of 12288 (the last cut to 8480 rows); per row it projects the detail
  and context features to 128 columns and blends them by a gate, the logistic of a small normalized, rectified
  network of the joined features. The reference computes the same per row on the whole arrays. At the extended reals
  the two differ in three places: the reference multiplies the joined row by the whole first gate matrix where the
  kernel adds two products (a finite sum regrouped), it spells the logistic as one over one plus an exponential (the
  logistic's definition), and it forms (1 − g) · C + g · D where the kernel forms C + g · (D − C). The last is
  distributivity, false at the infinities: it holds because the precondition makes every entry of the streamed arrays and
  of the projections a real number, so that C and D are real, and the logistic is always real.

  FRAMES. The word-level kernel's matrix products are functions of their whole operands, and the last block's
  staging tails hold words nothing names, so its frame forgets the result window (FrameKernel). The idealized
  kernel's run names every written-back row (FrameKernelIdeal), which gives its frame and its value (ValueKernelIdeal).
  The reference is a straight-line host program; its frame is its run with the result dropped.
-/
import proofs.«180442_j23115513987443_2_alg».proof.Defs
import proofs.«180442_j23115513987443_2_alg».proof.Proof.Gen.Kernel
import proofs.«180442_j23115513987443_2_alg».proof.Proof.Gen.KernelIdeal
import proofs.«180442_j23115513987443_2_alg».proof.Proof.Gen.ReferenceIdeal
import proofs.«180442_j23115513987443_2_alg».proof.Proof.Gen.Pre_finite_inputs
import proofs.«180442_j23115513987443_2_alg».proof.Proof.Gen.ReferenceIdeal.Run
import proofs.«180442_j23115513987443_2_alg».proof.Proof.Gen.ReferenceIdeal.Read
import proofs.«180442_j23115513987443_2_alg».proof.Proof.FrameKernel
import proofs.«180442_j23115513987443_2_alg».proof.Proof.ValueKernelIdeal
import proofs.«180442_j23115513987443_2_alg».proof.Proof.RefValue
import proofs.«180442_j23115513987443_2_alg».proof.Proof.Finite
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Body.frame (F := Bits) m ρ

/-- So does the idealized kernel: its value run with the result dropped. -/
theorem frame_kernelIdeal : Cert.frame_KernelIdeal := fun m ρ _ =>
  (θ_run Cert.KernelIdeal.defs _ _).mono (fun _ h c => (h c).2) (Cert.KernelIdeal.Body.run_value m ρ)

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the eight arguments, of which the precondition holds, both idealized programs end with
    the same result array: `outArr` of the arguments. The kernel's by its value run; the reference's by its run read entry
    by entry and the law between the two arrangements, which uses that the streamed arrays and the projections hold
    real numbers. -/
theorem algebraic : Cert.algebraic_KernelIdeal_ReferenceIdeal := by
  intro m ρ m' ρ' hpre hagree
  refine ⟨fun c => Cert.KernelIdeal.Body.kernelOut m c, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.FiniteInputs.reals_of_pre _ _ _ _ _ _ _ _ (hpre c)
  rw [Cert.ReferenceIdeal.Read.val_main_v42_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.ReferenceIdeal.RefValue.ref_eq_outArr _ _ _ _ _ _ _ _ h0 h1 h2 h3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
